-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S512x128 .f32) (main_arg9 : FVec F S128 .f32) (main_arg10 : FVec F S128x1 .f32) (main_arg11 : FVec F S1 .f32) (main_arg12 : FVec F S128x1 .f32) (main_arg13 : FVec F S1 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_v48 main_v49 main_v50

def fn_part1 {F : FTy → Type} [FloatOps F] (main_arg5 : FVec F S256 .f32) (main_arg6 : FVec F S512x128 .f32) (main_arg7 : FVec F S128 .f32) (main_arg8 : FVec F S512x128 .f32) (main_arg9 : FVec F S128 .f32) (main_arg10 : FVec F S128x1 .f32) (main_arg11 : FVec F S1 .f32) (main_arg12 : FVec F S128x1 .f32) (main_arg13 : FVec F S1 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x800000 32) (main_arg2 : FVec F S64x256 .f32) (main_arg3 : FVec F S256 .f32) (main_arg4 : FVec F S64x256 .f32) (main_arg5 : FVec F S256 .f32) (main_arg6 : FVec F S512x128 .f32) (main_arg7 : FVec F S128 .f32) (main_arg8 : FVec F S512x128 .f32) (main_arg9 : FVec F S128 .f32) (main_arg10 : FVec F S128x1 .f32) (main_arg11 : FVec F S1 .f32) (main_arg12 : FVec F S128x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x256 : Shape := ⟨2, ![1, 256]⟩
abbrev S50000x256 : Shape := ⟨2, ![50000, 256]⟩
abbrev S5000x64 : Shape := ⟨2, ![5000, 64]⟩
abbrev S5000x256 : Shape := ⟨2, ![5000, 256]⟩
abbrev S800000x256 : Shape := ⟨2, ![800000, 256]⟩
abbrev S50000x512 : Shape := ⟨2, ![50000, 512]⟩
abbrev S1x128 : Shape := ⟨2, ![1, 128]⟩
abbrev S50000x128 : Shape := ⟨2, ![50000, 128]⟩
abbrev S5000x512 : Shape := ⟨2, ![5000, 512]⟩
abbrev S5000x128 : Shape := ⟨2, ![5000, 128]⟩
abbrev S800000x128 : Shape := ⟨2, ![800000, 128]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 138
  | .vmem => 36
  | .smem => 0
  | _ => 0

abbrev hbmTy0_0 (i : Nat) : BufTy := match i % 128 with
  | 0 => ⟨S50000x64, .f32⟩
  | 1 => ⟨S2x800000, .i32⟩
  | 2 => ⟨S64x256, .f32⟩
  | 3 => ⟨S256, .f32⟩
  | 4 => ⟨S64x256, .f32⟩
  | 5 => ⟨S256, .f32⟩
  | 6 => ⟨S512x128, .f32⟩
  | 7 => ⟨S128, .f32⟩
  | 8 => ⟨S512x128, .f32⟩
  | 9 => ⟨S128, .f32⟩
  | 10 => ⟨S128x1, .f32⟩
  | 11 => ⟨S1, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .i1⟩
  | 30 => ⟨S_, .f32⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S1x256, .f32⟩
  | 59 => ⟨S50000x256, .f32⟩
  | 60 => ⟨S_, .f32⟩
  | 61 => ⟨S1x256, .f32⟩
  | 62 => ⟨S50000x256, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x256, .f32⟩
  | 72 => ⟨S800000x1, .f32⟩
  | 73 => ⟨S800000x256, .f32⟩
  | 74 => ⟨S800000x256, .f32⟩
  | 75 => ⟨S_, .f32⟩
  | 76 => ⟨S50000x256, .f32⟩
  | 77 => ⟨S800000x1, .i32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S50000x512, .f32⟩
  | 86 => ⟨S1x128, .f32⟩
  | 87 => ⟨S50000x128, .f32⟩
  | 88 => ⟨S_, .f32⟩
  | 89 => ⟨S1x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x1, .f32⟩
  | 101 => ⟨S800000x128, .f32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S1x1, .f32⟩
  | 115 => ⟨S50000x1, .f32⟩
  | 116 => ⟨S_, .f32⟩
  | 117 => ⟨S1x1, .f32⟩
  | 118 => ⟨S50000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x1, .f32⟩
  | _ => ⟨S50000x64, .f32⟩

abbrev hbmTy0_1 (i : Nat) : BufTy := match i % 128 with
  | 0 => ⟨S800000x1, .f32⟩
  | 1 => ⟨S800000x1, .f32⟩
  | 2 => ⟨S_, .f32⟩
  | 3 => ⟨S50000x1, .f32⟩
  | 4 => ⟨S800000x1, .i32⟩
  | 5 => ⟨S50000x1, .f32⟩
  | 6 => ⟨S1x1, .f32⟩
  | 7 => ⟨S50000x1, .f32⟩
  | 8 => ⟨S50000x1, .f32⟩
  | 9 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x64, .f32⟩
  | .local _ .vmem, ⟨7, _⟩ => ⟨S5000x64, .f32⟩
  | .local _ .vmem, ⟨8, _⟩ => ⟨S64x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x512, .f32⟩
  | .local _ .vmem, ⟨13, _⟩ => ⟨S5000x512, .f32⟩
  | .local _ .vmem, ⟨14, _⟩ => ⟨S512x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x512, .f32⟩
  | .local _ .vmem, ⟨19, _⟩ => ⟨S5000x512, .f32⟩
  | .local _ .vmem, ⟨20, _⟩ => ⟨S512x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S128x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_c_7 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_c_14 : Ref sig .tc := ⟨.hbm, 91, rfl⟩
abbrev main_v57 : Ref sig .tc := ⟨.hbm, 92, rfl⟩
abbrev main_v58 : Ref sig .tc := ⟨.hbm, 93, rfl⟩
abbrev main_c_15 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_18 : Ref sig .tc := ⟨.hbm, 116, rfl⟩
abbrev main_v78 : Ref sig .tc := ⟨.hbm, 117, rfl⟩
abbrev main_v79 : Ref sig .tc := ⟨.hbm, 118, rfl⟩
abbrev main_c_19 : Ref sig .tc := ⟨.hbm, 119, rfl⟩
abbrev main_v80 : Ref sig .tc := ⟨.hbm, 120, rfl⟩
abbrev main_v81 : Ref sig .tc := ⟨.hbm, 121, rfl⟩
abbrev main_c_20 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_21 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S1x256 : S_.BroadcastsInDim S1x256 (![] : Fin 0 → Fin S1x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  concatenates_S50000x256_S50000x256_S50000x512_d1 : Shape.Concatenates [S50000x256, S50000x256] S50000x512 1
  shapeCasts_S128_S1x128 : S128.ShapeCasts S1x128
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1x128 : S_.BroadcastsInDim S1x128 (![] : Fin 0 → Fin S1x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S1x1 : S_.BroadcastsInDim S1x1 (![] : Fin 0 → Fin S1x1.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x256_S5000x256_1_0_0_1_n_n_wf : DotDims.WF S5000x64 S64x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x512_S512x128_S5000x128_1_0_0_1_n_n_wf : DotDims.WF S5000x512 S512x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x1_S5000x1_1_0_0_1_n_n_wf : DotDims.WF S5000x128 S128x1 S5000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x512.size a ≤ S50000x512.size a
  hwx2_0 : ∀ i : grid2.Coords, EltTy.bits .f32 = 32 ∨ (Rect.block (s := S50000x512) S5000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x512.size a ≤ S50000x512.size a
  hwx3_0 : ∀ i : grid3.Coords, EltTy.bits .f32 = 32 ∨ (Rect.block (s := S50000x512) S5000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S512x128.size a
  hwx3_1 : ∀ i : grid3.Coords, EltTy.bits .f32 = 32 ∨ (Rect.block (s := S512x128) S512x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S50000x1.size a
  hwx5_3 : ∀ i : grid5.Coords, EltTy.bits .f32 = 32 ∨ (Rect.block (s := S50000x1) S5000x1.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S5000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S5000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S512x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v75) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S512x128 : Shape := ⟨2, ![512, 128]⟩
abbrev S128 : Shape := ⟨1, ![128]⟩
abbrev S128x1 : Shape := ⟨2, ![128, 1]⟩
abbrev S1 : Shape := ⟨1, ![1]⟩
abbrev S50000x256 : Shape := ⟨2, ![50000, 256]⟩
abbrev S1x256 : Shape := ⟨2, ![1, 256]⟩
abbrev S_ : Shape := ⟨0, ![]⟩
abbrev S1x800000 : Shape := ⟨2, ![1, 800000]⟩
abbrev S800000 : Shape := ⟨1, ![800000]⟩
abbrev S50000 : Shape := ⟨1, ![50000]⟩
abbrev S800000x1 : Shape := ⟨2, ![800000, 1]⟩
abbrev S800000x256 : Shape := ⟨2, ![800000, 256]⟩
abbrev S50000x512 : Shape := ⟨2, ![50000, 512]⟩
abbrev S50000x128 : Shape := ⟨2, ![50000, 128]⟩
abbrev S1x128 : Shape := ⟨2, ![1, 128]⟩
abbrev S800000x128 : Shape := ⟨2, ![800000, 128]⟩
abbrev S50000x1 : Shape := ⟨2, ![50000, 1]⟩
abbrev S1x1 : Shape := ⟨2, ![1, 1]⟩

abbrev nBuf : Space → Nat
  | .hbm => 232
  | .vmem => 0
  | .smem => 0
  | _ => 0

abbrev hbmTy0_0 (i : Nat) : BufTy := match i % 128 with
  | 0 => ⟨S50000x64, .f32⟩
  | 1 => ⟨S2x800000, .i32⟩
  | 2 => ⟨S64x256, .f32⟩
  | 3 => ⟨S256, .f32⟩
  | 4 => ⟨S64x256, .f32⟩
  | 5 => ⟨S256, .f32⟩
  | 6 => ⟨S512x128, .f32⟩
  | 7 => ⟨S128, .f32⟩
  | 8 => ⟨S512x128, .f32⟩
  | 9 => ⟨S128, .f32⟩
  | 10 => ⟨S128x1, .f32⟩
  | 11 => ⟨S1, .f32⟩
  | 12 => ⟨S128x1, .f32⟩
  | 13 => ⟨S1, .f32⟩
  | 14 => ⟨S50000x256, .f32⟩
  | 15 => ⟨S1x256, .f32⟩
  | 16 => ⟨S50000x256, .f32⟩
  | 17 => ⟨S50000x256, .f32⟩
  | 18 => ⟨S_, .f32⟩
  | 19 => ⟨S50000x256, .f32⟩
  | 20 => ⟨S50000x256, .f32⟩
  | 21 => ⟨S1x800000, .i32⟩
  | 22 => ⟨S800000, .i32⟩
  | 23 => ⟨S1x800000, .i32⟩
  | 24 => ⟨S800000, .i32⟩
  | 25 => ⟨S50000x256, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .i1⟩
  | 38 => ⟨S_, .f32⟩
  | 39 => ⟨S_, .f32⟩
  | 40 => ⟨S50000, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x256, .f32⟩
  | 75 => ⟨S800000x1, .f32⟩
  | 76 => ⟨S800000x256, .f32⟩
  | 77 => ⟨S800000x256, .f32⟩
  | 78 => ⟨S_, .f32⟩
  | 79 => ⟨S50000x256, .f32⟩
  | 80 => ⟨S800000x1, .i32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S50000x512, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x800000, .i32⟩
  | 97 => ⟨S800000, .i32⟩
  | 98 => ⟨S1x800000, .i32⟩
  | 99 => ⟨S800000, .i32⟩
  | 100 => ⟨S50000x128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .i1⟩
  | 110 => ⟨S_, .f32⟩
  | 111 => ⟨S50000, .f32⟩
  | 112 => ⟨S50000, .i1⟩
  | 113 => ⟨S_, .f32⟩
  | 114 => ⟨S_, .f32⟩
  | 115 => ⟨S50000, .f32⟩
  | 116 => ⟨S50000, .f32⟩
  | 117 => ⟨S50000, .f32⟩
  | 118 => ⟨S_, .f32⟩
  | 119 => ⟨S_, .f32⟩
  | 120 => ⟨S50000, .f32⟩
  | 121 => ⟨S50000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S50000x1, .f32⟩
  | 37 => ⟨S1x1, .f32⟩
  | 38 => ⟨S50000x1, .f32⟩
  | 39 => ⟨S50000x1, .f32⟩
  | 40 => ⟨S1x800000, .i32⟩
  | 41 => ⟨S800000, .i32⟩
  | 42 => ⟨S1x800000, .i32⟩
  | 43 => ⟨S800000, .i32⟩
  | 44 => ⟨S50000x1, .f32⟩
  | 45 => ⟨S_, .f32⟩
  | 46 => ⟨S800000, .f32⟩
  | 47 => ⟨S_, .f32⟩
  | 48 => ⟨S50000, .f32⟩
  | 49 => ⟨S800000x1, .i32⟩
  | 50 => ⟨S50000, .f32⟩
  | 51 => ⟨S_, .f32⟩
  | 52 => ⟨S50000, .f32⟩
  | 53 => ⟨S50000, .i1⟩
  | 54 => ⟨S_, .f32⟩
  | 55 => ⟨S50000, .f32⟩
  | 56 => ⟨S50000, .i1⟩
  | 57 => ⟨S_, .f32⟩
  | 58 => ⟨S_, .f32⟩
  | 59 => ⟨S50000, .f32⟩
  | 60 => ⟨S50000, .f32⟩
  | 61 => ⟨S50000, .f32⟩
  | 62 => ⟨S_, .f32⟩
  | 63 => ⟨S_, .f32⟩
  | 64 => ⟨S50000, .f32⟩
  | 65 => ⟨S50000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S800000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x1, .f32⟩
  | 94 => ⟨S800000x1, .f32⟩
  | 95 => ⟨S800000x1, .f32⟩
  | 96 => ⟨S_, .f32⟩
  | 97 => ⟨S50000x1, .f32⟩
  | 98 => ⟨S800000x1, .i32⟩
  | 99 => ⟨S50000x1, .f32⟩
  | 100 => ⟨S1x1, .f32⟩
  | 101 => ⟨S50000x1, .f32⟩
  | 102 => ⟨S50000x1, .f32⟩
  | 103 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_v20 : Ref sig .tc := ⟨.hbm, 46, rfl⟩
abbrev main_c : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call3_cst : Ref sig .tc := ⟨.hbm, 85, rfl⟩
abbrev main_call3_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_call4_cst : Ref sig .tc := ⟨.hbm, 93, rfl⟩
abbrev main_call4_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_13 : Ref sig .tc := ⟨.hbm, 107, rfl⟩
abbrev main_v68 : Ref sig .tc := ⟨.hbm, 108, rfl⟩
abbrev main_v69 : Ref sig .tc := ⟨.hbm, 109, rfl⟩
abbrev main_cst_14 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_call5_v0 : Ref sig .tc := ⟨.hbm, 114, rfl⟩
abbrev main_call5_v1 : Ref sig .tc := ⟨.hbm, 115, rfl⟩
abbrev main_v72 : Ref sig .tc := ⟨.hbm, 116, rfl⟩
abbrev main_v73 : Ref sig .tc := ⟨.hbm, 117, rfl⟩
abbrev main_cst_16 : Ref sig .tc := ⟨.hbm, 118, rfl⟩
abbrev main_call6_v0 : Ref sig .tc := ⟨.hbm, 119, rfl⟩
abbrev main_call6_v1 : Ref sig .tc := ⟨.hbm, 120, rfl⟩
abbrev main_v74 : Ref sig .tc := ⟨.hbm, 121, rfl⟩
abbrev main_c_17 : Ref sig .tc := ⟨.hbm, 122, rfl⟩
abbrev main_v75 : Ref sig .tc := ⟨.hbm, 123, rfl⟩
abbrev main_v76 : Ref sig .tc := ⟨.hbm, 124, rfl⟩
abbrev main_c_18 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_19 : Ref sig .tc := ⟨.hbm, 131, rfl⟩
abbrev main_v82 : Ref sig .tc := ⟨.hbm, 132, rfl⟩
abbrev main_v83 : Ref sig .tc := ⟨.hbm, 133, rfl⟩
abbrev main_c_20 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_c_21 : Ref sig .tc := ⟨.hbm, 141, rfl⟩
abbrev main_v90 : Ref sig .tc := ⟨.hbm, 142, rfl⟩
abbrev main_v91 : Ref sig .tc := ⟨.hbm, 143, rfl⟩
abbrev main_c_22 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_23 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_call7_cst : Ref sig .tc := ⟨.hbm, 160, rfl⟩
abbrev main_call7_v0 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_24 : Ref sig .tc := ⟨.hbm, 173, rfl⟩
abbrev main_v117 : Ref sig .tc := ⟨.hbm, 174, rfl⟩
abbrev main_cst_25 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_cst_26 : Ref sig .tc := ⟨.hbm, 179, rfl⟩
abbrev main_v121 : Ref sig .tc := ⟨.hbm, 180, rfl⟩
abbrev main_v122 : Ref sig .tc := ⟨.hbm, 181, rfl⟩
abbrev main_cst_27 : Ref sig .tc := ⟨.hbm, 182, rfl⟩
abbrev main_v123 : Ref sig .tc := ⟨.hbm, 183, rfl⟩
abbrev main_v124 : Ref sig .tc := ⟨.hbm, 184, rfl⟩
abbrev main_cst_28 : Ref sig .tc := ⟨.hbm, 185, rfl⟩
abbrev main_call8_v0 : Ref sig .tc := ⟨.hbm, 186, rfl⟩
abbrev main_call8_v1 : Ref sig .tc := ⟨.hbm, 187, rfl⟩
abbrev main_v125 : Ref sig .tc := ⟨.hbm, 188, rfl⟩
abbrev main_v126 : Ref sig .tc := ⟨.hbm, 189, rfl⟩
abbrev main_cst_29 : Ref sig .tc := ⟨.hbm, 190, rfl⟩
abbrev main_call9_v0 : Ref sig .tc := ⟨.hbm, 191, rfl⟩
abbrev main_call9_v1 : Ref sig .tc := ⟨.hbm, 192, rfl⟩
abbrev main_v127 : Ref sig .tc := ⟨.hbm, 193, rfl⟩
abbrev main_c_30 : Ref sig .tc := ⟨.hbm, 194, rfl⟩
abbrev main_v128 : Ref sig .tc := ⟨.hbm, 195, rfl⟩
abbrev main_v129 : Ref sig .tc := ⟨.hbm, 196, rfl⟩
abbrev main_c_31 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_c_32 : Ref sig .tc := ⟨.hbm, 203, rfl⟩
abbrev main_v135 : Ref sig .tc := ⟨.hbm, 204, rfl⟩
abbrev main_v136 : Ref sig .tc := ⟨.hbm, 205, rfl⟩
abbrev main_c_33 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_c_34 : Ref sig .tc := ⟨.hbm, 213, rfl⟩
abbrev main_v143 : Ref sig .tc := ⟨.hbm, 214, rfl⟩
abbrev main_v144 : Ref sig .tc := ⟨.hbm, 215, rfl⟩
abbrev main_c_35 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_36 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  concatenates_S50000x256_S50000x256_S50000x512_d1 : Shape.Concatenates [S50000x256, S50000x256] S50000x512 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x64_S64x256_S50000x256_1_0_0_1_n_n_wf : DotDims.WF S50000x64 S64x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KRun.lean ====
/-
  The idealized kernel's run with its result named. The program is six matrix-product regions among stretches of
  host operations; every weakly fair execution terminates, nothing faulting, with the argument arrays as launched and
  the result array at the last boundary's contents: the fold of the host stretches and of the regions' write-backs
  from the launch memory, read at the result's buffer.
-/
import proofs.«114399_j69234872811823_1_alg».proof.Defs
import proofs.«114399_j69234872811823_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and every argument array as launched. -/
theorem run_value : θ_run defs (onTc (τ := τ) (main (F := F))) ⟨m, fun _ => 0, ρ⟩ (fun r => ∀ c : Dev nD,
      r.2.mem ((c.tc : Thread nD τ).loc main_v95) = W17 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v95 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)

end Cert.KernelIdeal.KRun

end
-- ==== Proof.Carry.lean ====
/-
  What a region leaves alone. A region writes only its output array: each of its input arrays and every buffer that
  is not one of its arrays holds at the region's exit what it held at its entry. One equation per region and buffer
  read later on, for the buffers the host stretches after it go on reading.
-/
import proofs.«114399_j69234872811823_1_alg».proof.Proof.Gen.KernelIdeal.Frame

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem W6_main_arg0 (c : Dev nD) : W6 m ρ c (Proc.devRef .tc main_arg0) = W5 m ρ c (Proc.devRef .tc main_arg0) :=
  (W6_arr m ρ c 0).trans (((dat0 (V5 m ρ) c).arrAt_in 0 rfl _).trans (A_eq0 (V5 m ρ) c 0))
theorem W6_main_arg2 (c : Dev nD) : W6 m ρ c (Proc.devRef .tc main_arg2) = W5 m ρ c (Proc.devRef .tc main_arg2) :=
  (W6_arr m ρ c 1).trans (((dat0 (V5 m ρ) c).arrAt_in 1 rfl _).trans (A_eq0 (V5 m ρ) c 1))
theorem W6_main_arg4 (c : Dev nD) : W6 m ρ c (Proc.devRef .tc main_arg4) = W5 m ρ c (Proc.devRef .tc main_arg4) :=
  W6_of_ne m ρ c main_arg4 (by decide)
theorem W6_main_v1 (c : Dev nD) : W6 m ρ c (Proc.devRef .tc main_v1) = W5 m ρ c (Proc.devRef .tc main_v1) :=
  W6_of_ne m ρ c main_v1 (by decide)
theorem W6_main_v3 (c : Dev nD) : W6 m ρ c (Proc.devRef .tc main_v3) = W5 m ρ c (Proc.devRef .tc main_v3) :=
  W6_of_ne m ρ c main_v3 (by decide)
theorem W6_main_v29 (c : Dev nD) : W6 m ρ c (Proc.devRef .tc main_v29) = W5 m ρ c (Proc.devRef .tc main_v29) :=
  W6_of_ne m ρ c main_v29 (by decide)
theorem W6_main_arg5 (c : Dev nD) : W6 m ρ c (Proc.devRef .tc main_arg5) = W5 m ρ c (Proc.devRef .tc main_arg5) :=
  W6_of_ne m ρ c main_arg5 (by decide)
theorem W6_main_arg7 (c : Dev nD) : W6 m ρ c (Proc.devRef .tc main_arg7) = W5 m ρ c (Proc.devRef .tc main_arg7) :=
  W6_of_ne m ρ c main_arg7 (by decide)
theorem W6_main_arg6 (c : Dev nD) : W6 m ρ c (Proc.devRef .tc main_arg6) = W5 m ρ c (Proc.devRef .tc main_arg6) :=
  W6_of_ne m ρ c main_arg6 (by decide)
theorem W6_main_arg8 (c : Dev nD) : W6 m ρ c (Proc.devRef .tc main_arg8) = W5 m ρ c (Proc.devRef .tc main_arg8) :=
  W6_of_ne m ρ c main_arg8 (by decide)
theorem W6_main_arg9 (c : Dev nD) : W6 m ρ c (Proc.devRef .tc main_arg9) = W5 m ρ c (Proc.devRef .tc main_arg9) :=
  W6_of_ne m ρ c main_arg9 (by decide)
theorem W6_main_arg11 (c : Dev nD) : W6 m ρ c (Proc.devRef .tc main_arg11) = W5 m ρ c (Proc.devRef .tc main_arg11) :=
  W6_of_ne m ρ c main_arg11 (by decide)
theorem W6_main_arg10 (c : Dev nD) : W6 m ρ c (Proc.devRef .tc main_arg10) = W5 m ρ c (Proc.devRef .tc main_arg10) :=
  W6_of_ne m ρ c main_arg10 (by decide)
theorem W6_main_arg12 (c : Dev nD) : W6 m ρ c (Proc.devRef .tc main_arg12) = W5 m ρ c (Proc.devRef .tc main_arg12) :=
  W6_of_ne m ρ c main_arg12 (by decide)
theorem W6_main_arg13 (c : Dev nD) : W6 m ρ c (Proc.devRef .tc main_arg13) = W5 m ρ c (Proc.devRef .tc main_arg13) :=
  W6_of_ne m ρ c main_arg13 (by decide)
theorem W6_main_v30 (c : Dev nD) : W6 m ρ c (Proc.devRef .tc main_v30) = W5 m ρ c (Proc.devRef .tc main_v30) :=
  (W6_arr m ρ c 2).trans (((dat0 (V5 m ρ) c).arrAt_in 2 rfl _).trans (A_eq0 (V5 m ρ) c 2))

theorem W8_main_v1 (c : Dev nD) : W8 m ρ c (Proc.devRef .tc main_v1) = W7 m ρ c (Proc.devRef .tc main_v1) :=
  W8_of_ne m ρ c main_v1 (by decide)
theorem W8_main_v3 (c : Dev nD) : W8 m ρ c (Proc.devRef .tc main_v3) = W7 m ρ c (Proc.devRef .tc main_v3) :=
  W8_of_ne m ρ c main_v3 (by decide)
theorem W8_main_v29 (c : Dev nD) : W8 m ρ c (Proc.devRef .tc main_v29) = W7 m ρ c (Proc.devRef .tc main_v29) :=
  W8_of_ne m ρ c main_v29 (by decide)
theorem W8_main_v31 (c : Dev nD) : W8 m ρ c (Proc.devRef .tc main_v31) = W7 m ρ c (Proc.devRef .tc main_v31) :=
  W8_of_ne m ρ c main_v31 (by decide)
theorem W8_main_arg5 (c : Dev nD) : W8 m ρ c (Proc.devRef .tc main_arg5) = W7 m ρ c (Proc.devRef .tc main_arg5) :=
  W8_of_ne m ρ c main_arg5 (by decide)
theorem W8_main_arg7 (c : Dev nD) : W8 m ρ c (Proc.devRef .tc main_arg7) = W7 m ρ c (Proc.devRef .tc main_arg7) :=
  W8_of_ne m ρ c main_arg7 (by decide)
theorem W8_main_arg6 (c : Dev nD) : W8 m ρ c (Proc.devRef .tc main_arg6) = W7 m ρ c (Proc.devRef .tc main_arg6) :=
  W8_of_ne m ρ c main_arg6 (by decide)
theorem W8_main_arg8 (c : Dev nD) : W8 m ρ c (Proc.devRef .tc main_arg8) = W7 m ρ c (Proc.devRef .tc main_arg8) :=
  W8_of_ne m ρ c main_arg8 (by decide)
theorem W8_main_arg9 (c : Dev nD) : W8 m ρ c (Proc.devRef .tc main_arg9) = W7 m ρ c (Proc.devRef .tc main_arg9) :=
  W8_of_ne m ρ c main_arg9 (by decide)
theorem W8_main_arg11 (c : Dev nD) : W8 m ρ c (Proc.devRef .tc main_arg11) = W7 m ρ c (Proc.devRef .tc main_arg11) :=
  W8_of_ne m ρ c main_arg11 (by decide)
theorem W8_main_arg10 (c : Dev nD) : W8 m ρ c (Proc.devRef .tc main_arg10) = W7 m ρ c (Proc.devRef .tc main_arg10) :=
  W8_of_ne m ρ c main_arg10 (by decide)
theorem W8_main_arg12 (c : Dev nD) : W8 m ρ c (Proc.devRef .tc main_arg12) = W7 m ρ c (Proc.devRef .tc main_arg12) :=
  W8_of_ne m ρ c main_arg12 (by decide)
theorem W8_main_arg13 (c : Dev nD) : W8 m ρ c (Proc.devRef .tc main_arg13) = W7 m ρ c (Proc.devRef .tc main_arg13) :=
  W8_of_ne m ρ c main_arg13 (by decide)
theorem W8_main_arg0 (c : Dev nD) : W8 m ρ c (Proc.devRef .tc main_arg0) = W7 m ρ c (Proc.devRef .tc main_arg0) :=
  (W8_arr m ρ c 0).trans (((dat1 (V7 m ρ) c).arrAt_in 0 rfl _).trans (A_eq1 (V7 m ρ) c 0))
theorem W8_main_arg4 (c : Dev nD) : W8 m ρ c (Proc.devRef .tc main_arg4) = W7 m ρ c (Proc.devRef .tc main_arg4) :=
  (W8_arr m ρ c 1).trans (((dat1 (V7 m ρ) c).arrAt_in 1 rfl _).trans (A_eq1 (V7 m ρ) c 1))

theorem W10_main_v52 (c : Dev nD) : W10 m ρ c (Proc.devRef .tc main_v52) = W9 m ρ c (Proc.devRef .tc main_v52) :=
  (W10_arr m ρ c 0).trans (((dat2 (V9 m ρ) c).arrAt_in 0 rfl _).trans (A_eq2 (V9 m ρ) c 0))
theorem W10_main_arg8 (c : Dev nD) : W10 m ρ c (Proc.devRef .tc main_arg8) = W9 m ρ c (Proc.devRef .tc main_arg8) :=
  W10_of_ne m ρ c main_arg8 (by decide)
theorem W10_main_v1 (c : Dev nD) : W10 m ρ c (Proc.devRef .tc main_v1) = W9 m ρ c (Proc.devRef .tc main_v1) :=
  W10_of_ne m ρ c main_v1 (by decide)
theorem W10_main_v3 (c : Dev nD) : W10 m ρ c (Proc.devRef .tc main_v3) = W9 m ρ c (Proc.devRef .tc main_v3) :=
  W10_of_ne m ρ c main_v3 (by decide)
theorem W10_main_v29 (c : Dev nD) : W10 m ρ c (Proc.devRef .tc main_v29) = W9 m ρ c (Proc.devRef .tc main_v29) :=
  W10_of_ne m ρ c main_v29 (by decide)
theorem W10_main_arg9 (c : Dev nD) : W10 m ρ c (Proc.devRef .tc main_arg9) = W9 m ρ c (Proc.devRef .tc main_arg9) :=
  W10_of_ne m ρ c main_arg9 (by decide)
theorem W10_main_arg11 (c : Dev nD) : W10 m ρ c (Proc.devRef .tc main_arg11) = W9 m ρ c (Proc.devRef .tc main_arg11) :=
  W10_of_ne m ρ c main_arg11 (by decide)
theorem W10_main_arg10 (c : Dev nD) : W10 m ρ c (Proc.devRef .tc main_arg10) = W9 m ρ c (Proc.devRef .tc main_arg10) :=
  W10_of_ne m ρ c main_arg10 (by decide)
theorem W10_main_arg12 (c : Dev nD) : W10 m ρ c (Proc.devRef .tc main_arg12) = W9 m ρ c (Proc.devRef .tc main_arg12) :=
  W10_of_ne m ρ c main_arg12 (by decide)
theorem W10_main_arg13 (c : Dev nD) : W10 m ρ c (Proc.devRef .tc main_arg13) = W9 m ρ c (Proc.devRef .tc main_arg13) :=
  W10_of_ne m ρ c main_arg13 (by decide)
theorem W10_main_arg6 (c : Dev nD) : W10 m ρ c (Proc.devRef .tc main_arg6) = W9 m ρ c (Proc.devRef .tc main_arg6) :=
  (W10_arr m ρ c 1).trans (((dat2 (V9 m ρ) c).arrAt_in 1 rfl _).trans (A_eq2 (V9 m ρ) c 1))

theorem W12_main_v1 (c : Dev nD) : W12 m ρ c (Proc.devRef .tc main_v1) = W11 m ρ c (Proc.devRef .tc main_v1) :=
  W12_of_ne m ρ c main_v1 (by decide)
theorem W12_main_v3 (c : Dev nD) : W12 m ρ c (Proc.devRef .tc main_v3) = W11 m ρ c (Proc.devRef .tc main_v3) :=
  W12_of_ne m ρ c main_v3 (by decide)
theorem W12_main_v29 (c : Dev nD) : W12 m ρ c (Proc.devRef .tc main_v29) = W11 m ρ c (Proc.devRef .tc main_v29) :=
  W12_of_ne m ρ c main_v29 (by decide)
theorem W12_main_v54 (c : Dev nD) : W12 m ρ c (Proc.devRef .tc main_v54) = W11 m ρ c (Proc.devRef .tc main_v54) :=
  W12_of_ne m ρ c main_v54 (by decide)
theorem W12_main_arg9 (c : Dev nD) : W12 m ρ c (Proc.devRef .tc main_arg9) = W11 m ρ c (Proc.devRef .tc main_arg9) :=
  W12_of_ne m ρ c main_arg9 (by decide)
theorem W12_main_arg11 (c : Dev nD) : W12 m ρ c (Proc.devRef .tc main_arg11) = W11 m ρ c (Proc.devRef .tc main_arg11) :=
  W12_of_ne m ρ c main_arg11 (by decide)
theorem W12_main_arg10 (c : Dev nD) : W12 m ρ c (Proc.devRef .tc main_arg10) = W11 m ρ c (Proc.devRef .tc main_arg10) :=
  W12_of_ne m ρ c main_arg10 (by decide)
theorem W12_main_arg12 (c : Dev nD) : W12 m ρ c (Proc.devRef .tc main_arg12) = W11 m ρ c (Proc.devRef .tc main_arg12) :=
  W12_of_ne m ρ c main_arg12 (by decide)
theorem W12_main_arg13 (c : Dev nD) : W12 m ρ c (Proc.devRef .tc main_arg13) = W11 m ρ c (Proc.devRef .tc main_arg13) :=
  W12_of_ne m ρ c main_arg13 (by decide)
theorem W12_main_v52 (c : Dev nD) : W12 m ρ c (Proc.devRef .tc main_v52) = W11 m ρ c (Proc.devRef .tc main_v52) :=
  (W12_arr m ρ c 0).trans (((dat3 (V11 m ρ) c).arrAt_in 0 rfl _).trans (A_eq3 (V11 m ρ) c 0))
theorem W12_main_arg8 (c : Dev nD) : W12 m ρ c (Proc.devRef .tc main_arg8) = W11 m ρ c (Proc.devRef .tc main_arg8) :=
  (W12_arr m ρ c 1).trans (((dat3 (V11 m ρ) c).arrAt_in 1 rfl _).trans (A_eq3 (V11 m ρ) c 1))

theorem W14_main_v75 (c : Dev nD) : W14 m ρ c (Proc.devRef .tc main_v75) = W13 m ρ c (Proc.devRef .tc main_v75) :=
  (W14_arr m ρ c 0).trans (((dat4 (V13 m ρ) c).arrAt_in 0 rfl _).trans (A_eq4 (V13 m ρ) c 0))
theorem W14_main_arg12 (c : Dev nD) : W14 m ρ c (Proc.devRef .tc main_arg12) = W13 m ρ c (Proc.devRef .tc main_arg12) :=
  W14_of_ne m ρ c main_arg12 (by decide)
theorem W14_main_v1 (c : Dev nD) : W14 m ρ c (Proc.devRef .tc main_v1) = W13 m ρ c (Proc.devRef .tc main_v1) :=
  W14_of_ne m ρ c main_v1 (by decide)
theorem W14_main_v3 (c : Dev nD) : W14 m ρ c (Proc.devRef .tc main_v3) = W13 m ρ c (Proc.devRef .tc main_v3) :=
  W14_of_ne m ρ c main_v3 (by decide)
theorem W14_main_v29 (c : Dev nD) : W14 m ρ c (Proc.devRef .tc main_v29) = W13 m ρ c (Proc.devRef .tc main_v29) :=
  W14_of_ne m ρ c main_v29 (by decide)
theorem W14_main_arg13 (c : Dev nD) : W14 m ρ c (Proc.devRef .tc main_arg13) = W13 m ρ c (Proc.devRef .tc main_arg13) :=
  W14_of_ne m ρ c main_arg13 (by decide)
theorem W14_main_arg10 (c : Dev nD) : W14 m ρ c (Proc.devRef .tc main_arg10) = W13 m ρ c (Proc.devRef .tc main_arg10) :=
  (W14_arr m ρ c 1).trans (((dat4 (V13 m ρ) c).arrAt_in 1 rfl _).trans (A_eq4 (V13 m ρ) c 1))

theorem W16_main_v77 (c : Dev nD) : W16 m ρ c (Proc.devRef .tc main_v77) = W15 m ρ c (Proc.devRef .tc main_v77) :=
  W16_of_ne m ρ c main_v77 (by decide)
theorem W16_main_v1 (c : Dev nD) : W16 m ρ c (Proc.devRef .tc main_v1) = W15 m ρ c (Proc.devRef .tc main_v1) :=
  W16_of_ne m ρ c main_v1 (by decide)
theorem W16_main_v3 (c : Dev nD) : W16 m ρ c (Proc.devRef .tc main_v3) = W15 m ρ c (Proc.devRef .tc main_v3) :=
  W16_of_ne m ρ c main_v3 (by decide)
theorem W16_main_v29 (c : Dev nD) : W16 m ρ c (Proc.devRef .tc main_v29) = W15 m ρ c (Proc.devRef .tc main_v29) :=
  W16_of_ne m ρ c main_v29 (by decide)
theorem W16_main_arg13 (c : Dev nD) : W16 m ρ c (Proc.devRef .tc main_arg13) = W15 m ρ c (Proc.devRef .tc main_arg13) :=
  W16_of_ne m ρ c main_arg13 (by decide)
theorem W16_main_v75 (c : Dev nD) : W16 m ρ c (Proc.devRef .tc main_v75) = W15 m ρ c (Proc.devRef .tc main_v75) :=
  (W16_arr m ρ c 0).trans (((dat5 (V15 m ρ) c).arrAt_in 0 rfl _).trans (A_eq5 (V15 m ρ) c 0))
theorem W16_main_arg12 (c : Dev nD) : W16 m ρ c (Proc.devRef .tc main_arg12) = W15 m ρ c (Proc.devRef .tc main_arg12) :=
  (W16_arr m ρ c 1).trans (((dat5 (V15 m ρ) c).arrAt_in 1 rfl _).trans (A_eq5 (V15 m ρ) c 1))

end Cert.KernelIdeal.Carry

end
-- ==== Proof.LibRowForms.lean ====
/-
  A row vector of length n read as a [1, n] array: the reshape [n] → [1, n] and the broadcast along the new leading
  unit axis are the same array, entry (0, q) of either is entry q of the vector.
-/
import Idealize.ShloMosaic.Lib.ValueIdx
import Idealize.ShloMosaic.Lib.Pipeline.Value

noncomputable section

namespace Cert.LibRowForms

open Idealize.ShloMosaic Idealize.ShloMosaic.ValueIdx

/-- Reshaping a length-n vector to [1, n] is broadcasting it along a new leading unit axis. -/
theorem reshape_row {n : ℕ} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, q, rfl⟩ : ∃ (z : Fin 1) (q : Fin n), j = ix2 z q := ⟨j 0, j 1, eq_ix2 j⟩
  have e1 : shapeCast ⟨2, ![1, n]⟩ b h (ix2 z q) = b (ix1 q) := by
    refine shapeCast_apply b h (ix2 z q) (ix1 q) ?_
    rw [Shape.rowMajor_val_one, Shape.rowMajor_val_two]
    show q.val = z.val * n + q.val
    have := z.isLt
    have hz : z.val = 0 := by omega
    rw [hz]; omega
  have e2 : broadcastInDim ⟨2, ![1, n]⟩ ![1] h' b (ix2 z q) = b (ix1 q) := by
    refine broadcastInDim_apply ![1] h' b (ix2 z q) (ix1 q) fun a => ?_
    match a with
    | ⟨0, _⟩ =>
      show q.val = if n = 1 then 0 else q.val
      split
      · have := q.isLt; omega
      · rfl
  rw [e1, e2]

end Cert.LibRowForms

end
-- ==== Proof.WherePlain.lean ====
/-
  The two selections the host makes on the in-degrees (keep a positive degree, else one; keep the inverse square root
  where the degree is positive, else zero) are outlined functions of three operations each: convert the scalar,
  broadcast it, select. As operations on the buffers they are the plain ones — the outlined function's typed
  references only transport contents along an equality of types that holds by computation.
-/
import proofs.«114399_j69234872811823_1_alg».proof.Proof.Gen.KernelIdeal.Launch

noncomputable section

namespace Cert.KernelIdeal.WherePlain

open Cert.KernelIdeal Cert.KernelIdeal.Gen
open Idealize.ShloMosaic Idealize.ShloMosaic.TcCoe Idealize.SL.Sem

variable {F : FTy → Type} [FloatOps F]

/-- The first selection's three operations, on the buffers directly. -/
abbrev whereOps0 : List (HloOp τ sig (Elt F)) :=
  [ StableHlo.unary main_cst_3 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v11 main_v7 main_call0_v1 main_v12 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- The second selection's three operations, on the buffers directly. -/
abbrev whereOps1 : List (HloOp τ sig (Elt F)) :=
  [ StableHlo.unary main_cst_4 main_call1_v0 (id : (⟨S_, .f32⟩ : BufTy).Contents (Elt F) → (⟨S_, .f32⟩ : BufTy).Contents (Elt F)),
    StableHlo.unary main_call1_v0 main_call1_v1 (broadcastInDim S50000 ![] bcast_S_S50000 : (⟨S_, .f32⟩ : BufTy).Contents (Elt F) → (⟨S50000, .f32⟩ : BufTy).Contents (Elt F)),
    StableHlo.ternary main_v9 main_v13 main_call1_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

theorem hostOps0_1_plain : (hostOps0_1 : List (HloOp τ sig (Elt F))) = whereOps0 := rfl
theorem hostOps0_3_plain : (hostOps0_3 : List (HloOp τ sig (Elt F))) = whereOps1 := rfl

end Cert.KernelIdeal.WherePlain

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibBlockProduct.lean ====
/-
  The product of a row block with a weight matrix is the matching row block of the whole product: over the
  extended reals an entry of [Mb, K] × [K, N] is a sum over k that reads only one row of the left operand, so when
  row p of the block is row r of the whole matrix, entry (p, n) of the block's product into a zero accumulator is
  entry (r, n) of the whole product.
-/
import Idealize.ShloMosaic.PureOps.Ideal.Laws
import Idealize.ShloMosaic.Lib.ValueIdx
import proofs.«114399_j69234872811823_1_alg».proof.Proof.LibDenseEntry

noncomputable section

namespace Cert.LibBlockProduct

open Idealize.ShloMosaic Idealize.ShloMosaic.ValueIdx

variable {M Mb K N : ℕ}

/-- Entry (p, n) of a row block's product (the matrix unit's, into zero) is entry (r, n) of the whole host product
    when the block's row p is the matrix's row r and the right operands agree on column n. -/
theorem block_product {φ₁ φ₂ ψ₁ ψ₂ : FTy}
    (db : DotDims ⟨2, ![Mb, K]⟩ ⟨2, ![K, N]⟩ ⟨2, ![Mb, N]⟩)
    (b1 : db.lhsContracting = [1]) (b2 : db.rhsContracting = [0]) (b3 : db.lhsNonContracting = [0])
    (b4 : db.rhsNonContracting = [1]) (b5 : db.lhsBatch = []) (b6 : db.rhsBatch = [])
    (df : DotDims ⟨2, ![M, K]⟩ ⟨2, ![K, N]⟩ ⟨2, ![M, N]⟩)
    (f1 : df.lhsContracting = [1]) (f2 : df.rhsContracting = [0]) (f3 : df.lhsNonContracting = [0])
    (f4 : df.rhsNonContracting = [1]) (f5 : df.lhsBatch = []) (f6 : df.rhsBatch = [])
    (prec prec' : Option ContractPrecision) (sched : HostSchedule)
    (xb : FVec Ideal ⟨2, ![Mb, K]⟩ φ₁) (w : FVec Ideal ⟨2, ![K, N]⟩ φ₂)
    (X : FVec Ideal ⟨2, ![M, K]⟩ ψ₁) (w' : FVec Ideal ⟨2, ![K, N]⟩ ψ₂)
    (p : Fin Mb) (r : Fin M) (n : Fin N)
    (hx : ∀ k : Fin K, xb (ix2 p k) = X (ix2 r k)) (hw : ∀ k : Fin K, w (ix2 k n) = w' (ix2 k n)) :
    FloatOps.matmul db prec xb w (constant ⟨2, ![Mb, N]⟩ .f32 0x00000000#32) (ix2 p n)
      = FloatOps.dotGeneral df prec' sched X w' (ix2 r n) := by
  refine (Cert.LibDenseEntry.matmul_plain_zero_apply db b1 b2 b3 b4 b5 b6 prec xb w p n).trans ?_
  refine Eq.trans ?_ (Cert.LibDenseEntry.dotGeneral_plain_apply df f1 f2 f3 f4 f5 f6 prec' sched X w' r n).symm
  exact Finset.sum_congr rfl fun k _ => by rw [hx k, hw k]

end Cert.LibBlockProduct

end
-- ==== Proof.Region0.lean ====
/-
  Region 0: one row block of 5000 rows per grid point, ten points. At a point the body multiplies the point's
  [5000, 64] block of the left matrix by the whole [64, 256] weight matrix, adds the bias row and takes the maximum with zero,
  and stores the [5000, 256] result as the output's block of the same rows. An entry of a product reads one row of
  the left operand, so the ten blocks are the row blocks of ONE whole-array function of the region's input arrays:
  the whole [50000, 64] × [64, 256] product plus the bias row broadcast down the rows, clamped below at zero. The blocks tile the output array
  (row r lies in block r / 5000), so the array ends holding that function.
-/
import proofs.«114399_j69234872811823_1_alg».proof.Proof.Gen.KernelIdeal.Frame
import proofs.«114399_j69234872811823_1_alg».proof.Proof.LibBlockProduct
import Idealize.ShloMosaic.Lib.Pipeline.Value
import Idealize.ShloMosaic.Lib.ValueIdx
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array function the region computes, spelt as the host would: the product of the left array with the
    weights, plus the bias row, maximum with zero. -/
abbrev G (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 256]⟩ : Shape).BroadcastsInDim ⟨2, ![50000, 256]⟩ ![0, 1])
    (hs : (⟨0, ![]⟩ : Shape).BroadcastsInDim ⟨2, ![50000, 256]⟩ ![])
    (X : FVec Ideal ⟨2, ![50000, 64]⟩ .f32) (w : FVec Ideal ⟨2, ![64, 256]⟩ .f32) (b : FVec Ideal ⟨2, ![1, 256]⟩ .f32) : FVec Ideal ⟨2, ![50000, 256]⟩ .f32 :=
  maximumf (addf (Host.dotGeneral d none X w) (broadcastInDim ⟨2, ![50000, 256]⟩ ![0, 1] hb b)) (broadcastInDim ⟨2, ![50000, 256]⟩ ![] hs (constant ⟨0, ![]⟩ .f32 0x00000000#32))

/-- The body's stored value at entry (p, n) of the block is the whole-array function at entry (r, n), when row p of
    the loaded left block is row r of the left array. -/
theorem pay_entry (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 256]⟩ : Shape).BroadcastsInDim ⟨2, ![50000, 256]⟩ ![0, 1])
    (hs : (⟨0, ![]⟩ : Shape).BroadcastsInDim ⟨2, ![50000, 256]⟩ ![])
    (x0 : FVec Ideal ⟨2, ![5000, 64]⟩ .f32) (w : FVec Ideal ⟨2, ![64, 256]⟩ .f32) (b : FVec Ideal ⟨2, ![1, 256]⟩ .f32)
    (X : FVec Ideal ⟨2, ![50000, 64]⟩ .f32) (p : Fin 5000) (r : Fin 50000) (n : Fin 256)
    (hx : ∀ k : Fin 64, x0 (ix2 p k) = X (ix2 r k)) :
    k0_pay1 x0 w b (ix2 p n) = G d h1 h2 h3 h4 h5 h6 hb hs X w b (ix2 r n) := by
  unfold k0_pay1
  show max (FloatOps.matmul dot_S5000x64_S64x256_S5000x256_1_0_0_1_n_n none (truncf .bf16 x0 bitsLt_bf16_f32) (truncf .bf16 w bitsLt_bf16_f32) (constant S5000x256 .f32 0x00000000#32) (ix2 p n)
      + broadcastTo S5000x256 (shapeCast S1x256 b shapeCasts_S1x256_S1x256) broadcasts_S1x256_S5000x256 (ix2 p n))
      (Scalar.ofBits (F := Ideal) .f32 0x00000000#32)
    = max (FloatOps.dotGeneral d none .single X w (ix2 r n)
      + broadcastInDim ⟨2, ![50000, 256]⟩ ![0, 1] hb b (ix2 r n))
      (broadcastInDim ⟨2, ![50000, 256]⟩ ![] hs (constant (F := Ideal) ⟨0, ![]⟩ .f32 0x00000000#32) (ix2 r n))
  have e1 := Cert.LibBlockProduct.block_product dot_S5000x64_S64x256_S5000x256_1_0_0_1_n_n rfl rfl rfl rfl rfl rfl d h1 h2 h3 h4 h5 h6 none none .single
    (truncf .bf16 x0 bitsLt_bf16_f32) (truncf .bf16 w bitsLt_bf16_f32) X w p r n hx (fun _ => rfl)
  rw [e1]
  have e2 : broadcastTo S5000x256 (shapeCast S1x256 b shapeCasts_S1x256_S1x256) broadcasts_S1x256_S5000x256 (ix2 p n) = b (ix2 0 n) := by
    rw [shapeCast_self]
    refine broadcastTo_apply b _ (ix2 p n) (ix2 0 n) fun a => ?_
    match a with
    | ⟨0, _⟩ => rfl
    | ⟨1, _⟩ => rfl
  have e3 : broadcastInDim ⟨2, ![50000, 256]⟩ ![0, 1] hb b (ix2 r n) = b (ix2 0 n) := by
    refine broadcastInDim_apply _ hb b (ix2 r n) (ix2 0 n) fun a => ?_
    match a with
    | ⟨0, _⟩ => rfl
    | ⟨1, _⟩ => rfl
  rw [e2, e3]
  rfl

/-- The windows' block indices over the grid: the left window and the output move down the rows with the point, the
    weights and the bias window stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

section
variable (V : (c : Dev nD) → (b : Ref sig .tc) → Buf (Elt Ideal) ((c : Thread nD τ).loc b))

/-- Row p of the left window's block at point t is row 5000·t + p of the left array. -/
theorem left_block (c : Dev nD) (t : Fin cfg0.N) (p : Fin 5000) (k : Fin 64) (r : Fin 50000) (hr : r.val = t.val * 5000 + p.val) :
    (iblk0 V c 0 t : Vec Ideal S5000x64 .f32) (ix2 p k) = (V c (Pipeline.arrRef spec0 0) : Vec Ideal S50000x64 .f32) (ix2 r k) := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t 0 * 5000 + 1 * p.val = r.val; rw [e0, hr]; omega
  | ⟨1, _⟩ => show win0_0.index t 1 * 64 + 1 * k.val = k.val; rw [e1]; omega

/-- The weights' window is the whole weight array at every point. -/
theorem weight_block (c : Dev nD) (t : Fin cfg0.N) :
    (iblk0 V c 1 t : Vec Ideal S64x256 .f32) = V c (Pipeline.arrRef spec0 1) := by
  obtain ⟨-, -, e0, e1, -⟩ := idx_facts t
  unfold iblk0
  funext y
  rw [View.read_apply]
  show V c (Pipeline.arrRef spec0 1) _ = V c (Pipeline.arrRef spec0 1) _
  refine congrArg _ (funext fun a => Fin.ext ?_)
  match a with
  | ⟨0, _⟩ => show win0_1.index t 0 * 64 + 1 * (y 0).val = (y 0).val; rw [e0]; omega
  | ⟨1, _⟩ => show win0_1.index t 1 * 256 + 1 * (y 1).val = (y 1).val; rw [e1]; omega

/-- The bias window is the whole bias row at every point. -/
theorem bias_block (c : Dev nD) (t : Fin cfg0.N) :
    (iblk0 V c 2 t : Vec Ideal S1x256 .f32) = V c (Pipeline.arrRef spec0 2) := by
  obtain ⟨-, -, -, -, e0, e1, -⟩ := idx_facts t
  unfold iblk0
  funext y
  rw [View.read_apply]
  show V c (Pipeline.arrRef spec0 2) _ = V c (Pipeline.arrRef spec0 2) _
  refine congrArg _ (funext fun a => Fin.ext ?_)
  match a with
  | ⟨0, _⟩ => show win0_2.index t 0 * 1 + 1 * (y 0).val = (y 0).val; rw [e0]; omega
  | ⟨1, _⟩ => show win0_2.index t 1 * 256 + 1 * (y 1).val = (y 1).val; rw [e1]; omega

/-- What point t writes back is block t of the whole-array function of the region's input arrays. -/
theorem flushed_eq (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 256]⟩ : Shape).BroadcastsInDim ⟨2, ![50000, 256]⟩ ![0, 1])
    (hs : (⟨0, ![]⟩ : Shape).BroadcastsInDim ⟨2, ![50000, 256]⟩ ![]) (c : Dev nD) (t : Fin cfg0.N) :
    (dat0 V c).flushed 3 t = ((cfg0.win 3).blk t).view.read (Elt Ideal)
      (G d h1 h2 h3 h4 h5 h6 hb hs (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x256) hz, View.ld_unit_zero (S := S1x256) hz]
  rw [weight_block, bias_block]
  obtain ⟨-, -, -, -, -, -, e6, e7, ht⟩ := idx_facts t
  funext y
  obtain ⟨p, n, rfl⟩ : ∃ (p : Fin 5000) (n : Fin 256), y = ix2 p n := ⟨y 0, y 1, eq_ix2 y⟩
  have hr : t.val * 5000 + p.val < 50000 := by have := p.isLt; omega
  rw [View.read_apply]
  have hemb : ((cfg0.win 3).blk t).view.emb (ix2 p n) = (ix2 (⟨t.val * 5000 + p.val, hr⟩ : Fin 50000) n : S50000x256.Idx) := by
    funext a; apply Fin.ext
    match a with
    | ⟨0, _⟩ => show win0_3.index t 0 * 5000 + 1 * p.val = t.val * 5000 + p.val; rw [e6]; omega
    | ⟨1, _⟩ => show win0_3.index t 1 * 256 + 1 * n.val = n.val; rw [e7]; omega
  rw [hemb]
  exact pay_entry d h1 h2 h3 h4 h5 h6 hb hs _ _ _ _ p ⟨_, hr⟩ n (fun k => left_block V c t p k _ rfl)

/-- Every index of the output array lies in the block of the point its row falls in. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, -, -, e6, e7, -⟩ := idx_facts t
  refine ⟨t, flush0_3 t, ?_⟩
  show i ∈ ((View.whole main_v31).slice (win0_3.rect t)).set
  rw [View.set_slice_whole, Rect.mem_set_unit]
  intro a
  match a with
  | ⟨0, _⟩ => show win0_3.index t 0 * 5000 ≤ (i 0).val ∧ (i 0).val < win0_3.index t 0 * 5000 + 5000
              rw [e6]; show (i 0).val / 5000 * 5000 ≤ (i 0).val ∧ (i 0).val < (i 0).val / 5000 * 5000 + 5000; omega
  | ⟨1, _⟩ => show win0_3.index t 1 * 256 ≤ (i 1).val ∧ (i 1).val < win0_3.index t 1 * 256 + 256
              rw [e7]; omega

/-- The output array after the region: the whole-array function of the input arrays as the region found them. -/
theorem final (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 256]⟩ : Shape).BroadcastsInDim ⟨2, ![50000, 256]⟩ ![0, 1])
    (hs : (⟨0, ![]⟩ : Shape).BroadcastsInDim ⟨2, ![50000, 256]⟩ ![]) (c : Dev nD) :
    (dat0 V c).arrAt 3 cfg0.N
      = G d h1 h2 h3 h4 h5 h6 hb hs (V c main_arg0) (V c main_arg2) (V c main_v30) :=
  (dat0 V c).arrAt_eq_of_cover 3 _ (fun t _ => flushed_eq V d h1 h2 h3 h4 h5 h6 hb hs c t) cover

end

end Cert.KernelIdeal.Region0

end
-- ==== Proof.Region1.lean ====
/-
  Region 1: one row block of 5000 rows per grid point, ten points. At a point the body multiplies the point's
  [5000, 64] block of the left matrix by the whole [64, 256] weight matrix,
  and stores the [5000, 256] result as the output's block of the same rows. An entry of a product reads one row of
  the left operand, so the ten blocks are the row blocks of ONE whole-array function of the region's input arrays:
  the whole [50000, 64] × [64, 256] product. The blocks tile the output array
  (row r lies in block r / 5000), so the array ends holding that function.
-/
import proofs.«114399_j69234872811823_1_alg».proof.Proof.Gen.KernelIdeal.Frame
import proofs.«114399_j69234872811823_1_alg».proof.Proof.LibBlockProduct
import Idealize.ShloMosaic.Lib.Pipeline.Value
import Idealize.ShloMosaic.Lib.ValueIdx
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array function the region computes, spelt as the host would: the product of the left array with the
    weights. -/
abbrev G (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![50000, 64]⟩ .f32) (w : FVec Ideal ⟨2, ![64, 256]⟩ .f32) : FVec Ideal ⟨2, ![50000, 256]⟩ .f32 :=
  Host.dotGeneral d none X w

/-- The body's stored value at entry (p, n) of the block is the whole-array function at entry (r, n), when row p of
    the loaded left block is row r of the left array. -/
theorem pay_entry (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = [])
    (x0 : FVec Ideal ⟨2, ![5000, 64]⟩ .f32) (w : FVec Ideal ⟨2, ![64, 256]⟩ .f32)
    (X : FVec Ideal ⟨2, ![50000, 64]⟩ .f32) (p : Fin 5000) (r : Fin 50000) (n : Fin 256)
    (hx : ∀ k : Fin 64, x0 (ix2 p k) = X (ix2 r k)) :
    k1_pay1 x0 w (ix2 p n) = G d h1 h2 h3 h4 h5 h6 X w (ix2 r n) := by
  unfold k1_pay1
  show FloatOps.matmul dot_S5000x64_S64x256_S5000x256_1_0_0_1_n_n none (truncf .bf16 x0 bitsLt_bf16_f32) (truncf .bf16 w bitsLt_bf16_f32) (constant S5000x256 .f32 0x00000000#32) (ix2 p n)
    = FloatOps.dotGeneral d none .single X w (ix2 r n)
  have e1 := Cert.LibBlockProduct.block_product dot_S5000x64_S64x256_S5000x256_1_0_0_1_n_n rfl rfl rfl rfl rfl rfl d h1 h2 h3 h4 h5 h6 none none .single
    (truncf .bf16 x0 bitsLt_bf16_f32) (truncf .bf16 w bitsLt_bf16_f32) X w p r n hx (fun _ => rfl)
  rw [e1]

/-- The windows' block indices over the grid: the left window and the output move down the rows with the point, the
    weights and the bias window stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

section
variable (V : (c : Dev nD) → (b : Ref sig .tc) → Buf (Elt Ideal) ((c : Thread nD τ).loc b))

/-- Row p of the left window's block at point t is row 5000·t + p of the left array. -/
theorem left_block (c : Dev nD) (t : Fin cfg1.N) (p : Fin 5000) (k : Fin 64) (r : Fin 50000) (hr : r.val = t.val * 5000 + p.val) :
    (iblk1 V c 0 t : Vec Ideal S5000x64 .f32) (ix2 p k) = (V c (Pipeline.arrRef spec1 0) : Vec Ideal S50000x64 .f32) (ix2 r k) := by
  obtain ⟨e0, e1, -⟩ := idx_facts t
  unfold iblk1
  rw [View.read_apply]
  show V c (Pipeline.arrRef spec1 0) _ = V c (Pipeline.arrRef spec1 0) _
  refine congrArg _ (funext fun a => Fin.ext ?_)
  match a with
  | ⟨0, _⟩ => show win1_0.index t 0 * 5000 + 1 * p.val = r.val; rw [e0, hr]; omega
  | ⟨1, _⟩ => show win1_0.index t 1 * 64 + 1 * k.val = k.val; rw [e1]; omega

/-- The weights' window is the whole weight array at every point. -/
theorem weight_block (c : Dev nD) (t : Fin cfg1.N) :
    (iblk1 V c 1 t : Vec Ideal S64x256 .f32) = V c (Pipeline.arrRef spec1 1) := by
  obtain ⟨-, -, e0, e1, -⟩ := idx_facts t
  unfold iblk1
  funext y
  rw [View.read_apply]
  show V c (Pipeline.arrRef spec1 1) _ = V c (Pipeline.arrRef spec1 1) _
  refine congrArg _ (funext fun a => Fin.ext ?_)
  match a with
  | ⟨0, _⟩ => show win1_1.index t 0 * 64 + 1 * (y 0).val = (y 0).val; rw [e0]; omega
  | ⟨1, _⟩ => show win1_1.index t 1 * 256 + 1 * (y 1).val = (y 1).val; rw [e1]; omega

/-- What point t writes back is block t of the whole-array function of the region's input arrays. -/
theorem flushed_eq (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = []) (c : Dev nD) (t : Fin cfg1.N) :
    (dat1 V c).flushed 3 t = ((cfg1.win 3).blk t).view.read (Elt Ideal)
      (G d h1 h2 h3 h4 h5 h6 (V c (Pipeline.arrRef spec1 0)) (V c (Pipeline.arrRef spec1 1))) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x256) hz, View.ld_unit_zero (S := S1x256) hz]
  rw [weight_block]
  obtain ⟨-, -, -, -, -, -, e6, e7, ht⟩ := idx_facts t
  funext y
  obtain ⟨p, n, rfl⟩ : ∃ (p : Fin 5000) (n : Fin 256), y = ix2 p n := ⟨y 0, y 1, eq_ix2 y⟩
  have hr : t.val * 5000 + p.val < 50000 := by have := p.isLt; omega
  rw [View.read_apply]
  have hemb : ((cfg1.win 3).blk t).view.emb (ix2 p n) = (ix2 (⟨t.val * 5000 + p.val, hr⟩ : Fin 50000) n : S50000x256.Idx) := by
    funext a; apply Fin.ext
    match a with
    | ⟨0, _⟩ => show win1_3.index t 0 * 5000 + 1 * p.val = t.val * 5000 + p.val; rw [e6]; omega
    | ⟨1, _⟩ => show win1_3.index t 1 * 256 + 1 * n.val = n.val; rw [e7]; omega
  rw [hemb]
  exact pay_entry d h1 h2 h3 h4 h5 h6 _ _ _ p ⟨_, hr⟩ n (fun k => left_block V c t p k _ rfl)

/-- Every index of the output array lies in the block of the point its row falls in. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 10 := N_1
  let t : Fin cfg1.N := ⟨(i 0).val / 5000, by rw [hN]; omega⟩
  obtain ⟨-, -, -, -, -, -, e6, e7, -⟩ := idx_facts t
  refine ⟨t, flush1_3 t, ?_⟩
  show i ∈ ((View.whole main_v33).slice (win1_3.rect t)).set
  rw [View.set_slice_whole, Rect.mem_set_unit]
  intro a
  match a with
  | ⟨0, _⟩ => show win1_3.index t 0 * 5000 ≤ (i 0).val ∧ (i 0).val < win1_3.index t 0 * 5000 + 5000
              rw [e6]; show (i 0).val / 5000 * 5000 ≤ (i 0).val ∧ (i 0).val < (i 0).val / 5000 * 5000 + 5000; omega
  | ⟨1, _⟩ => show win1_3.index t 1 * 256 ≤ (i 1).val ∧ (i 1).val < win1_3.index t 1 * 256 + 256
              rw [e7]; omega

/-- The output array after the region: the whole-array function of the input arrays as the region found them. -/
theorem final (d : DotDims ⟨2, ![50000, 64]⟩ ⟨2, ![64, 256]⟩ ⟨2, ![50000, 256]⟩)
    (h1 : d.lhsContracting = [1]) (h2 : d.rhsContracting = [0]) (h3 : d.lhsNonContracting = [0])
    (h4 : d.rhsNonContracting = [1]) (h5 : d.lhsBatch = []) (h6 : d.rhsBatch = []) (c : Dev nD) :
    (dat1 V c).arrAt 3 cfg1.N
      = G d h1 h2 h3 h4 h5 h6 (V c main_arg0) (V c main_arg4) :=
  (dat1 V c).arrAt_eq_of_cover 3 _ (fun t _ => flushed_eq V d h1 h2 h3 h4 h5 h6 c t) cover

end

end Cert.KernelIdeal.Region1

end
-- ==== Proof.Region2.lean ====
/-
  Region 2: one row block of 5000 rows per grid point, ten points. At a point the body multiplies the point's
  [5000, 512] block of the left matrix by the whole [512, 128] weight matrix, adds the bias row and takes the maximum with zero,
  and stores the [5000, 128] result as the output's block of the same rows. An entry of a product reads one row of
  the left operand, so the ten blocks are the row blocks of ONE whole-array function of the region's input arrays:
  the whole [50000, 512] × [512, 128] product plus the bias row broadcast down the rows, clamped below at zero. The blocks tile the output array
  (row r lies in block r / 5000), so the array ends holding that function.
-/
import proofs.«114399_j69234872811823_1_alg».proof.Proof.Gen.KernelIdeal.Frame
import proofs.«114399_j69234872811823_1_alg».proof.Proof.LibBlockProduct
import Idealize.ShloMosaic.Lib.Pipeline.Value
import Idealize.ShloMosaic.Lib.ValueIdx
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array function the region computes, spelt as the host would: the product of the left array with the
    weights, plus the bias row, maximum with zero. -/
abbrev G (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 128]⟩ : Shape).BroadcastsInDim ⟨2, ![50000, 128]⟩ ![0, 1])
    (hs : (⟨0, ![]⟩ : Shape).BroadcastsInDim ⟨2, ![50000, 128]⟩ ![])
    (X : FVec Ideal ⟨2, ![50000, 512]⟩ .f32) (w : FVec Ideal ⟨2, ![512, 128]⟩ .f32) (b : FVec Ideal ⟨2, ![1, 128]⟩ .f32) : FVec Ideal ⟨2, ![50000, 128]⟩ .f32 :=
  maximumf (addf (Host.dotGeneral d none X w) (broadcastInDim ⟨2, ![50000, 128]⟩ ![0, 1] hb b)) (broadcastInDim ⟨2, ![50000, 128]⟩ ![] hs (constant ⟨0, ![]⟩ .f32 0x00000000#32))

/-- The body's stored value at entry (p, n) of the block is the whole-array function at entry (r, n), when row p of
    the loaded left block is row r of the left array. -/
theorem pay_entry (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 128]⟩ : Shape).BroadcastsInDim ⟨2, ![50000, 128]⟩ ![0, 1])
    (hs : (⟨0, ![]⟩ : Shape).BroadcastsInDim ⟨2, ![50000, 128]⟩ ![])
    (x0 : FVec Ideal ⟨2, ![5000, 512]⟩ .f32) (w : FVec Ideal ⟨2, ![512, 128]⟩ .f32) (b : FVec Ideal ⟨2, ![1, 128]⟩ .f32)
    (X : FVec Ideal ⟨2, ![50000, 512]⟩ .f32) (p : Fin 5000) (r : Fin 50000) (n : Fin 128)
    (hx : ∀ k : Fin 512, x0 (ix2 p k) = X (ix2 r k)) :
    k2_pay1 x0 w b (ix2 p n) = G d h1 h2 h3 h4 h5 h6 hb hs X w b (ix2 r n) := by
  unfold k2_pay1
  show max (FloatOps.matmul dot_S5000x512_S512x128_S5000x128_1_0_0_1_n_n none (truncf .bf16 (shapeCast S5000x512 x0 shapeCasts_S5000x512_S5000x512) bitsLt_bf16_f32) (truncf .bf16 w bitsLt_bf16_f32) (constant S5000x128 .f32 0x00000000#32) (ix2 p n)
      + broadcastTo S5000x128 (shapeCast S1x128 b shapeCasts_S1x128_S1x128) broadcasts_S1x128_S5000x128 (ix2 p n))
      (Scalar.ofBits (F := Ideal) .f32 0x00000000#32)
    = max (FloatOps.dotGeneral d none .single X w (ix2 r n)
      + broadcastInDim ⟨2, ![50000, 128]⟩ ![0, 1] hb b (ix2 r n))
      (broadcastInDim ⟨2, ![50000, 128]⟩ ![] hs (constant (F := Ideal) ⟨0, ![]⟩ .f32 0x00000000#32) (ix2 r n))
  have e1 := Cert.LibBlockProduct.block_product dot_S5000x512_S512x128_S5000x128_1_0_0_1_n_n rfl rfl rfl rfl rfl rfl d h1 h2 h3 h4 h5 h6 none none .single
    (truncf .bf16 (shapeCast S5000x512 x0 shapeCasts_S5000x512_S5000x512) bitsLt_bf16_f32) (truncf .bf16 w bitsLt_bf16_f32) X w p r n (fun k => by rw [shapeCast_self]; exact hx k) (fun _ => rfl)
  rw [e1]
  have e2 : broadcastTo S5000x128 (shapeCast S1x128 b shapeCasts_S1x128_S1x128) broadcasts_S1x128_S5000x128 (ix2 p n) = b (ix2 0 n) := by
    rw [shapeCast_self]
    refine broadcastTo_apply b _ (ix2 p n) (ix2 0 n) fun a => ?_
    match a with
    | ⟨0, _⟩ => rfl
    | ⟨1, _⟩ => rfl
  have e3 : broadcastInDim ⟨2, ![50000, 128]⟩ ![0, 1] hb b (ix2 r n) = b (ix2 0 n) := by
    refine broadcastInDim_apply _ hb b (ix2 r n) (ix2 0 n) fun a => ?_
    match a with
    | ⟨0, _⟩ => rfl
    | ⟨1, _⟩ => rfl
  rw [e2, e3]
  rfl

/-- The windows' block indices over the grid: the left window and the output move down the rows with the point, the
    weights and the bias window stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

section
variable (V : (c : Dev nD) → (b : Ref sig .tc) → Buf (Elt Ideal) ((c : Thread nD τ).loc b))

/-- Row p of the left window's block at point t is row 5000·t + p of the left array. -/
theorem left_block (c : Dev nD) (t : Fin cfg2.N) (p : Fin 5000) (k : Fin 512) (r : Fin 50000) (hr : r.val = t.val * 5000 + p.val) :
    (iblk2 V c 0 t : Vec Ideal S5000x512 .f32) (ix2 p k) = (V c (Pipeline.arrRef spec2 0) : Vec Ideal S50000x512 .f32) (ix2 r k) := by
  obtain ⟨e0, e1, -⟩ := idx_facts t
  unfold iblk2
  rw [View.read_apply]
  show V c (Pipeline.arrRef spec2 0) _ = V c (Pipeline.arrRef spec2 0) _
  refine congrArg _ (funext fun a => Fin.ext ?_)
  match a with
  | ⟨0, _⟩ => show win2_0.index t 0 * 5000 + 1 * p.val = r.val; rw [e0, hr]; omega
  | ⟨1, _⟩ => show win2_0.index t 1 * 512 + 1 * k.val = k.val; rw [e1]; omega

/-- The weights' window is the whole weight array at every point. -/
theorem weight_block (c : Dev nD) (t : Fin cfg2.N) :
    (iblk2 V c 1 t : Vec Ideal S512x128 .f32) = V c (Pipeline.arrRef spec2 1) := by
  obtain ⟨-, -, e0, e1, -⟩ := idx_facts t
  unfold iblk2
  funext y
  rw [View.read_apply]
  show V c (Pipeline.arrRef spec2 1) _ = V c (Pipeline.arrRef spec2 1) _
  refine congrArg _ (funext fun a => Fin.ext ?_)
  match a with
  | ⟨0, _⟩ => show win2_1.index t 0 * 512 + 1 * (y 0).val = (y 0).val; rw [e0]; omega
  | ⟨1, _⟩ => show win2_1.index t 1 * 128 + 1 * (y 1).val = (y 1).val; rw [e1]; omega

/-- The bias window is the whole bias row at every point. -/
theorem bias_block (c : Dev nD) (t : Fin cfg2.N) :
    (iblk2 V c 2 t : Vec Ideal S1x128 .f32) = V c (Pipeline.arrRef spec2 2) := by
  obtain ⟨-, -, -, -, e0, e1, -⟩ := idx_facts t
  unfold iblk2
  funext y
  rw [View.read_apply]
  show V c (Pipeline.arrRef spec2 2) _ = V c (Pipeline.arrRef spec2 2) _
  refine congrArg _ (funext fun a => Fin.ext ?_)
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- What point t writes back is block t of the whole-array function of the region's input arrays. -/
theorem flushed_eq (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 128]⟩ : Shape).BroadcastsInDim ⟨2, ![50000, 128]⟩ ![0, 1])
    (hs : (⟨0, ![]⟩ : Shape).BroadcastsInDim ⟨2, ![50000, 128]⟩ ![]) (c : Dev nD) (t : Fin cfg2.N) :
    (dat2 V c).flushed 3 t = ((cfg2.win 3).blk t).view.read (Elt Ideal)
      (G d h1 h2 h3 h4 h5 h6 hb hs (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x512) hz, View.ld_unit_zero (S := S512x128) hz, View.ld_unit_zero (S := S1x128) hz]
  rw [weight_block, bias_block]
  obtain ⟨-, -, -, -, -, -, e6, e7, ht⟩ := idx_facts t
  funext y
  obtain ⟨p, n, rfl⟩ : ∃ (p : Fin 5000) (n : Fin 128), y = ix2 p n := ⟨y 0, y 1, eq_ix2 y⟩
  have hr : t.val * 5000 + p.val < 50000 := by have := p.isLt; omega
  rw [View.read_apply]
  have hemb : ((cfg2.win 3).blk t).view.emb (ix2 p n) = (ix2 (⟨t.val * 5000 + p.val, hr⟩ : Fin 50000) n : S50000x128.Idx) := by
    funext a; apply Fin.ext
    match a with
    | ⟨0, _⟩ => show win2_3.index t 0 * 5000 + 1 * p.val = t.val * 5000 + p.val; rw [e6]; omega
    | ⟨1, _⟩ => show win2_3.index t 1 * 128 + 1 * n.val = n.val; rw [e7]; omega
  rw [hemb]
  exact pay_entry d h1 h2 h3 h4 h5 h6 hb hs _ _ _ _ p ⟨_, hr⟩ n (fun k => left_block V c t p k _ rfl)

/-- Every index of the output array lies in the block of the point its row falls in. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, e6, e7, -⟩ := idx_facts t
  refine ⟨t, flush2_3 t, ?_⟩
  show i ∈ ((View.whole main_v54).slice (win2_3.rect t)).set
  rw [View.set_slice_whole, Rect.mem_set_unit]
  intro a
  match a with
  | ⟨0, _⟩ => show win2_3.index t 0 * 5000 ≤ (i 0).val ∧ (i 0).val < win2_3.index t 0 * 5000 + 5000
              rw [e6]; show (i 0).val / 5000 * 5000 ≤ (i 0).val ∧ (i 0).val < (i 0).val / 5000 * 5000 + 5000; omega
  | ⟨1, _⟩ => show win2_3.index t 1 * 128 ≤ (i 1).val ∧ (i 1).val < win2_3.index t 1 * 128 + 128
              rw [e7]; omega

/-- The output array after the region: the whole-array function of the input arrays as the region found them. -/
theorem final (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 128]⟩ : Shape).BroadcastsInDim ⟨2, ![50000, 128]⟩ ![0, 1])
    (hs : (⟨0, ![]⟩ : Shape).BroadcastsInDim ⟨2, ![50000, 128]⟩ ![]) (c : Dev nD) :
    (dat2 V c).arrAt 3 cfg2.N
      = G d h1 h2 h3 h4 h5 h6 hb hs (V c main_v52) (V c main_arg6) (V c main_v53) :=
  (dat2 V c).arrAt_eq_of_cover 3 _ (fun t _ => flushed_eq V d h1 h2 h3 h4 h5 h6 hb hs c t) cover

end

end Cert.KernelIdeal.Region2

end
-- ==== Proof.Region3.lean ====
/-
  Region 3: one row block of 5000 rows per grid point, ten points. At a point the body multiplies the point's
  [5000, 512] block of the left matrix by the whole [512, 128] weight matrix,
  and stores the [5000, 128] result as the output's block of the same rows. An entry of a product reads one row of
  the left operand, so the ten blocks are the row blocks of ONE whole-array function of the region's input arrays:
  the whole [50000, 512] × [512, 128] product. The blocks tile the output array
  (row r lies in block r / 5000), so the array ends holding that function.
-/
import proofs.«114399_j69234872811823_1_alg».proof.Proof.Gen.KernelIdeal.Frame
import proofs.«114399_j69234872811823_1_alg».proof.Proof.LibBlockProduct
import Idealize.ShloMosaic.Lib.Pipeline.Value
import Idealize.ShloMosaic.Lib.ValueIdx
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array function the region computes, spelt as the host would: the product of the left array with the
    weights. -/
abbrev G (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![50000, 512]⟩ .f32) (w : FVec Ideal ⟨2, ![512, 128]⟩ .f32) : FVec Ideal ⟨2, ![50000, 128]⟩ .f32 :=
  Host.dotGeneral d none X w

/-- The body's stored value at entry (p, n) of the block is the whole-array function at entry (r, n), when row p of
    the loaded left block is row r of the left array. -/
theorem pay_entry (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = [])
    (x0 : FVec Ideal ⟨2, ![5000, 512]⟩ .f32) (w : FVec Ideal ⟨2, ![512, 128]⟩ .f32)
    (X : FVec Ideal ⟨2, ![50000, 512]⟩ .f32) (p : Fin 5000) (r : Fin 50000) (n : Fin 128)
    (hx : ∀ k : Fin 512, x0 (ix2 p k) = X (ix2 r k)) :
    k3_pay1 x0 w (ix2 p n) = G d h1 h2 h3 h4 h5 h6 X w (ix2 r n) := by
  unfold k3_pay1
  show FloatOps.matmul dot_S5000x512_S512x128_S5000x128_1_0_0_1_n_n none (truncf .bf16 (shapeCast S5000x512 x0 shapeCasts_S5000x512_S5000x512) bitsLt_bf16_f32) (truncf .bf16 w bitsLt_bf16_f32) (constant S5000x128 .f32 0x00000000#32) (ix2 p n)
    = FloatOps.dotGeneral d none .single X w (ix2 r n)
  have e1 := Cert.LibBlockProduct.block_product dot_S5000x512_S512x128_S5000x128_1_0_0_1_n_n rfl rfl rfl rfl rfl rfl d h1 h2 h3 h4 h5 h6 none none .single
    (truncf .bf16 (shapeCast S5000x512 x0 shapeCasts_S5000x512_S5000x512) bitsLt_bf16_f32) (truncf .bf16 w bitsLt_bf16_f32) X w p r n (fun k => by rw [shapeCast_self]; exact hx k) (fun _ => rfl)
  rw [e1]

/-- The windows' block indices over the grid: the left window and the output move down the rows with the point, the
    weights and the bias window stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

section
variable (V : (c : Dev nD) → (b : Ref sig .tc) → Buf (Elt Ideal) ((c : Thread nD τ).loc b))

/-- Row p of the left window's block at point t is row 5000·t + p of the left array. -/
theorem left_block (c : Dev nD) (t : Fin cfg3.N) (p : Fin 5000) (k : Fin 512) (r : Fin 50000) (hr : r.val = t.val * 5000 + p.val) :
    (iblk3 V c 0 t : Vec Ideal S5000x512 .f32) (ix2 p k) = (V c (Pipeline.arrRef spec3 0) : Vec Ideal S50000x512 .f32) (ix2 r k) := by
  obtain ⟨e0, e1, -⟩ := idx_facts t
  unfold iblk3
  rw [View.read_apply]
  show V c (Pipeline.arrRef spec3 0) _ = V c (Pipeline.arrRef spec3 0) _
  refine congrArg _ (funext fun a => Fin.ext ?_)
  match a with
  | ⟨0, _⟩ => show win3_0.index t 0 * 5000 + 1 * p.val = r.val; rw [e0, hr]; omega
  | ⟨1, _⟩ => show win3_0.index t 1 * 512 + 1 * k.val = k.val; rw [e1]; omega

/-- The weights' window is the whole weight array at every point. -/
theorem weight_block (c : Dev nD) (t : Fin cfg3.N) :
    (iblk3 V c 1 t : Vec Ideal S512x128 .f32) = V c (Pipeline.arrRef spec3 1) := by
  obtain ⟨-, -, e0, e1, -⟩ := idx_facts t
  unfold iblk3
  funext y
  rw [View.read_apply]
  show V c (Pipeline.arrRef spec3 1) _ = V c (Pipeline.arrRef spec3 1) _
  refine congrArg _ (funext fun a => Fin.ext ?_)
  match a with
  | ⟨0, _⟩ => show win3_1.index t 0 * 512 + 1 * (y 0).val = (y 0).val; rw [e0]; omega
  | ⟨1, _⟩ => show win3_1.index t 1 * 128 + 1 * (y 1).val = (y 1).val; rw [e1]; omega

/-- What point t writes back is block t of the whole-array function of the region's input arrays. -/
theorem flushed_eq (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = []) (c : Dev nD) (t : Fin cfg3.N) :
    (dat3 V c).flushed 3 t = ((cfg3.win 3).blk t).view.read (Elt Ideal)
      (G d h1 h2 h3 h4 h5 h6 (V c (Pipeline.arrRef spec3 0)) (V c (Pipeline.arrRef spec3 1))) := by
  show (cfg3.win 3).cut (grid3.coords t) ((dat3 V c).after 3 t) = _
  rw [after3_3]
  unfold out3_3
  rw [View.canon_unit_zero hz]
  simp only [View.ld_unit_zero (S := S5000x512) hz, View.ld_unit_zero (S := S512x128) hz, View.ld_unit_zero (S := S1x128) hz]
  rw [weight_block]
  obtain ⟨-, -, -, -, -, -, e6, e7, ht⟩ := idx_facts t
  funext y
  obtain ⟨p, n, rfl⟩ : ∃ (p : Fin 5000) (n : Fin 128), y = ix2 p n := ⟨y 0, y 1, eq_ix2 y⟩
  have hr : t.val * 5000 + p.val < 50000 := by have := p.isLt; omega
  rw [View.read_apply]
  have hemb : ((cfg3.win 3).blk t).view.emb (ix2 p n) = (ix2 (⟨t.val * 5000 + p.val, hr⟩ : Fin 50000) n : S50000x128.Idx) := by
    funext a; apply Fin.ext
    match a with
    | ⟨0, _⟩ => show win3_3.index t 0 * 5000 + 1 * p.val = t.val * 5000 + p.val; rw [e6]; omega
    | ⟨1, _⟩ => show win3_3.index t 1 * 128 + 1 * n.val = n.val; rw [e7]; omega
  rw [hemb]
  exact pay_entry d h1 h2 h3 h4 h5 h6 _ _ _ p ⟨_, hr⟩ n (fun k => left_block V c t p k _ rfl)

/-- Every index of the output array lies in the block of the point its row falls in. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, e6, e7, -⟩ := idx_facts t
  refine ⟨t, flush3_3 t, ?_⟩
  show i ∈ ((View.whole main_v56).slice (win3_3.rect t)).set
  rw [View.set_slice_whole, Rect.mem_set_unit]
  intro a
  match a with
  | ⟨0, _⟩ => show win3_3.index t 0 * 5000 ≤ (i 0).val ∧ (i 0).val < win3_3.index t 0 * 5000 + 5000
              rw [e6]; show (i 0).val / 5000 * 5000 ≤ (i 0).val ∧ (i 0).val < (i 0).val / 5000 * 5000 + 5000; omega
  | ⟨1, _⟩ => show win3_3.index t 1 * 128 ≤ (i 1).val ∧ (i 1).val < win3_3.index t 1 * 128 + 128
              rw [e7]; omega

/-- The output array after the region: the whole-array function of the input arrays as the region found them. -/
theorem final (d : DotDims ⟨2, ![50000, 512]⟩ ⟨2, ![512, 128]⟩ ⟨2, ![50000, 128]⟩)
    (h1 : d.lhsContracting = [1]) (h2 : d.rhsContracting = [0]) (h3 : d.lhsNonContracting = [0])
    (h4 : d.rhsNonContracting = [1]) (h5 : d.lhsBatch = []) (h6 : d.rhsBatch = []) (c : Dev nD) :
    (dat3 V c).arrAt 3 cfg3.N
      = G d h1 h2 h3 h4 h5 h6 (V c main_v52) (V c main_arg8) :=
  (dat3 V c).arrAt_eq_of_cover 3 _ (fun t _ => flushed_eq V d h1 h2 h3 h4 h5 h6 c t) cover

end

end Cert.KernelIdeal.Region3

end
-- ==== Proof.Region4.lean ====
/-
  Region 4: one row block of 5000 rows per grid point, ten points. At a point the body multiplies the point's
  [5000, 128] block of the left matrix by the whole [128, 1] weight matrix, adds the bias row,
  and stores the [5000, 1] result as the output's block of the same rows. An entry of a product reads one row of
  the left operand, so the ten blocks are the row blocks of ONE whole-array function of the region's input arrays:
  the whole [50000, 128] × [128, 1] product plus the bias row broadcast down the rows. The blocks tile the output array
  (row r lies in block r / 5000), so the array ends holding that function.
-/
import proofs.«114399_j69234872811823_1_alg».proof.Proof.Gen.KernelIdeal.Frame
import proofs.«114399_j69234872811823_1_alg».proof.Proof.LibBlockProduct
import Idealize.ShloMosaic.Lib.Pipeline.Value
import Idealize.ShloMosaic.Lib.ValueIdx
import Idealize.ShloMosaic.Lib.Tactic

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array function the region computes, spelt as the host would: the product of the left array with the
    weights, plus the bias row. -/
abbrev G (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 1]⟩ : Shape).BroadcastsInDim ⟨2, ![50000, 1]⟩ ![0, 1])
    (X : FVec Ideal ⟨2, ![50000, 128]⟩ .f32) (w : FVec Ideal ⟨2, ![128, 1]⟩ .f32) (b : FVec Ideal ⟨2, ![1, 1]⟩ .f32) : FVec Ideal ⟨2, ![50000, 1]⟩ .f32 :=
  addf (Host.dotGeneral d none X w) (broadcastInDim ⟨2, ![50000, 1]⟩ ![0, 1] hb b)

/-- The body's stored value at entry (p, n) of the block is the whole-array function at entry (r, n), when row p of
    the loaded left block is row r of the left array. -/
theorem pay_entry (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 1]⟩ : Shape).BroadcastsInDim ⟨2, ![50000, 1]⟩ ![0, 1])
    (x0 : FVec Ideal ⟨2, ![5000, 128]⟩ .f32) (w : FVec Ideal ⟨2, ![128, 1]⟩ .f32) (b : FVec Ideal ⟨2, ![1, 1]⟩ .f32)
    (X : FVec Ideal ⟨2, ![50000, 128]⟩ .f32) (p : Fin 5000) (r : Fin 50000) (n : Fin 1)
    (hx : ∀ k : Fin 128, x0 (ix2 p k) = X (ix2 r k)) :
    k4_pay1 x0 w b (ix2 p n) = G d h1 h2 h3 h4 h5 h6 hb X w b (ix2 r n) := by
  unfold k4_pay1
  show FloatOps.matmul dot_S5000x128_S128x1_S5000x1_1_0_0_1_n_n none (truncf .bf16 (shapeCast S5000x128 x0 shapeCasts_S5000x128_S5000x128) bitsLt_bf16_f32) (truncf .bf16 w bitsLt_bf16_f32) (constant S5000x1 .f32 0x00000000#32) (ix2 p n)
      + broadcastTo S5000x1 (shapeCast S1x1 b shapeCasts_S1x1_S1x1) broadcasts_S1x1_S5000x1 (ix2 p n)
    = FloatOps.dotGeneral d none .single X w (ix2 r n)
      + broadcastInDim ⟨2, ![50000, 1]⟩ ![0, 1] hb b (ix2 r n)
  have e1 := Cert.LibBlockProduct.block_product dot_S5000x128_S128x1_S5000x1_1_0_0_1_n_n rfl rfl rfl rfl rfl rfl d h1 h2 h3 h4 h5 h6 none none .single
    (truncf .bf16 (shapeCast S5000x128 x0 shapeCasts_S5000x128_S5000x128) bitsLt_bf16_f32) (truncf .bf16 w bitsLt_bf16_f32) X w p r n (fun k => by rw [shapeCast_self]; exact hx k) (fun _ => rfl)
  rw [e1]
  have e2 : broadcastTo S5000x1 (shapeCast S1x1 b shapeCasts_S1x1_S1x1) broadcasts_S1x1_S5000x1 (ix2 p n) = b (ix2 0 n) := by
    rw [shapeCast_self]
    refine broadcastTo_apply b _ (ix2 p n) (ix2 0 n) fun a => ?_
    match a with
    | ⟨0, _⟩ => rfl
    | ⟨1, _⟩ => show n.val = 0; omega
  have e3 : broadcastInDim ⟨2, ![50000, 1]⟩ ![0, 1] hb b (ix2 r n) = b (ix2 0 n) := by
    refine broadcastInDim_apply _ hb b (ix2 r n) (ix2 0 n) fun a => ?_
    match a with
    | ⟨0, _⟩ => rfl
    | ⟨1, _⟩ => show n.val = 0; omega
  rw [e2, e3]

/-- The windows' block indices over the grid: the left window and the output move down the rows with the point, the
    weights and the bias window stay at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 10 :=
  (by decide +kernel : ∀ t : Fin grid4.N, _)

section
variable (V : (c : Dev nD) → (b : Ref sig .tc) → Buf (Elt Ideal) ((c : Thread nD τ).loc b))

/-- Row p of the left window's block at point t is row 5000·t + p of the left array. -/
theorem left_block (c : Dev nD) (t : Fin cfg4.N) (p : Fin 5000) (k : Fin 128) (r : Fin 50000) (hr : r.val = t.val * 5000 + p.val) :
    (iblk4 V c 0 t : Vec Ideal S5000x128 .f32) (ix2 p k) = (V c (Pipeline.arrRef spec4 0) : Vec Ideal S50000x128 .f32) (ix2 r k) := by
  obtain ⟨e0, e1, -⟩ := idx_facts t
  unfold iblk4
  rw [View.read_apply]
  show V c (Pipeline.arrRef spec4 0) _ = V c (Pipeline.arrRef spec4 0) _
  refine congrArg _ (funext fun a => Fin.ext ?_)
  match a with
  | ⟨0, _⟩ => show win4_0.index t 0 * 5000 + 1 * p.val = r.val; rw [e0, hr]; omega
  | ⟨1, _⟩ => show win4_0.index t 1 * 128 + 1 * k.val = k.val; rw [e1]; omega

/-- The weights' window is the whole weight array at every point. -/
theorem weight_block (c : Dev nD) (t : Fin cfg4.N) :
    (iblk4 V c 1 t : Vec Ideal S128x1 .f32) = V c (Pipeline.arrRef spec4 1) := by
  obtain ⟨-, -, e0, e1, -⟩ := idx_facts t
  unfold iblk4
  funext y
  rw [View.read_apply]
  show V c (Pipeline.arrRef spec4 1) _ = V c (Pipeline.arrRef spec4 1) _
  refine congrArg _ (funext fun a => Fin.ext ?_)
  match a with
  | ⟨0, _⟩ => show win4_1.index t 0 * 128 + 1 * (y 0).val = (y 0).val; rw [e0]; omega
  | ⟨1, _⟩ => show win4_1.index t 1 * 1 + 1 * (y 1).val = (y 1).val; rw [e1]; omega

/-- The bias window is the whole bias row at every point. -/
theorem bias_block (c : Dev nD) (t : Fin cfg4.N) :
    (iblk4 V c 2 t : Vec Ideal S1x1 .f32) = V c (Pipeline.arrRef spec4 2) := by
  obtain ⟨-, -, -, -, e0, e1, -⟩ := idx_facts t
  unfold iblk4
  funext y
  rw [View.read_apply]
  show V c (Pipeline.arrRef spec4 2) _ = V c (Pipeline.arrRef spec4 2) _
  refine congrArg _ (funext fun a => Fin.ext ?_)
  match a with
  | ⟨0, _⟩ => show win4_2.index t 0 * 1 + 1 * (y 0).val = (y 0).val; rw [e0]; omega
  | ⟨1, _⟩ => show win4_2.index t 1 * 1 + 1 * (y 1).val = (y 1).val; rw [e1]; omega

set_option maxHeartbeats 2000000 in
/-- What point t writes back is block t of the whole-array function of the region's input arrays. -/
theorem flushed_eq (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 1]⟩ : Shape).BroadcastsInDim ⟨2, ![50000, 1]⟩ ![0, 1]) (c : Dev nD) (t : Fin cfg4.N) :
    (dat4 V c).flushed 3 t = ((cfg4.win 3).blk t).view.read (Elt Ideal)
      (G d h1 h2 h3 h4 h5 h6 hb (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x1) hz, View.ld_unit_zero (S := S1x1) hz]
  rw [weight_block, bias_block]
  obtain ⟨-, -, -, -, -, -, e6, e7, ht⟩ := idx_facts t
  funext y
  obtain ⟨p, n, rfl⟩ : ∃ (p : Fin 5000) (n : Fin 1), y = ix2 p n := ⟨y 0, y 1, eq_ix2 y⟩
  have hr : t.val * 5000 + p.val < 50000 := by have := p.isLt; omega
  rw [View.read_apply]
  have hemb : ((cfg4.win 3).blk t).view.emb (ix2 p n) = (ix2 (⟨t.val * 5000 + p.val, hr⟩ : Fin 50000) n : S50000x1.Idx) := by
    funext a; apply Fin.ext
    match a with
    | ⟨0, _⟩ => show win4_3.index t 0 * 5000 + 1 * p.val = t.val * 5000 + p.val; rw [e6]; omega
    | ⟨1, _⟩ => show win4_3.index t 1 * 1 + 1 * n.val = n.val; rw [e7]; omega
  rw [hemb]
  exact pay_entry d h1 h2 h3 h4 h5 h6 hb _ _ _ _ p ⟨_, hr⟩ n (fun k => left_block V c t p k _ rfl)

/-- Every index of the output array lies in the block of the point its row falls in. -/
theorem cover (i : S50000x1.Idx) : ∃ t : Fin cfg4.N, (cfg4.win 3).flush t = true ∧ i ∈ ((cfg4.win 3).blk t).view.set := by
  have hi0 : (i 0).val < 50000 := (i 0).isLt
  have hi1 : (i 1).val < 1 := (i 1).isLt
  have hN : cfg4.N = 10 := N_4
  let t : Fin cfg4.N := ⟨(i 0).val / 5000, by rw [hN]; omega⟩
  obtain ⟨-, -, -, -, -, -, e6, e7, -⟩ := idx_facts t
  refine ⟨t, flush4_3 t, ?_⟩
  show i ∈ ((View.whole main_v77).slice (win4_3.rect t)).set
  rw [View.set_slice_whole, Rect.mem_set_unit]
  intro a
  match a with
  | ⟨0, _⟩ => show win4_3.index t 0 * 5000 ≤ (i 0).val ∧ (i 0).val < win4_3.index t 0 * 5000 + 5000
              rw [e6]; show (i 0).val / 5000 * 5000 ≤ (i 0).val ∧ (i 0).val < (i 0).val / 5000 * 5000 + 5000; omega
  | ⟨1, _⟩ => show win4_3.index t 1 * 1 ≤ (i 1).val ∧ (i 1).val < win4_3.index t 1 * 1 + 1
              rw [e7]; omega

/-- The output array after the region: the whole-array function of the input arrays as the region found them. -/
theorem final (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = [])
    (hb : (⟨2, ![1, 1]⟩ : Shape).BroadcastsInDim ⟨2, ![50000, 1]⟩ ![0, 1]) (c : Dev nD) :
    (dat4 V c).arrAt 3 cfg4.N
      = G d h1 h2 h3 h4 h5 h6 hb (V c main_v75) (V c main_arg10) (V c main_v76) :=
  (dat4 V c).arrAt_eq_of_cover 3 _ (fun t _ => flushed_eq V d h1 h2 h3 h4 h5 h6 hb c t) cover

end

end Cert.KernelIdeal.Region4

end
-- ==== Proof.Region5.lean ====
/-
  Region 5: one row block of 5000 rows per grid point, ten points. At a point the body multiplies the point's
  [5000, 128] block of the left matrix by the whole [128, 1] weight matrix,
  and stores the [5000, 1] result as the output's block of the same rows. An entry of a product reads one row of
  the left operand, so the ten blocks are the row blocks of ONE whole-array function of the region's input arrays:
  the whole [50000, 128] × [128, 1] product. The blocks tile the output array
  (row r lies in block r / 5000), so the array ends holding that function.
-/
import proofs.«114399_j69234872811823_1_alg».proof.Proof.Gen.KernelIdeal.Frame
import proofs.«114399_j69234872811823_1_alg».proof.Proof.LibBlockProduct
import Idealize.ShloMosaic.Lib.Pipeline.Value
import Idealize.ShloMosaic.Lib.ValueIdx
import Idealize.ShloMosaic.Lib.Tactic

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array function the region computes, spelt as the host would: the product of the left array with the
    weights. -/
abbrev G (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![50000, 128]⟩ .f32) (w : FVec Ideal ⟨2, ![128, 1]⟩ .f32) : FVec Ideal ⟨2, ![50000, 1]⟩ .f32 :=
  Host.dotGeneral d none X w

/-- The body's stored value at entry (p, n) of the block is the whole-array function at entry (r, n), when row p of
    the loaded left block is row r of the left array. -/
theorem pay_entry (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = [])
    (x0 : FVec Ideal ⟨2, ![5000, 128]⟩ .f32) (w : FVec Ideal ⟨2, ![128, 1]⟩ .f32)
    (X : FVec Ideal ⟨2, ![50000, 128]⟩ .f32) (p : Fin 5000) (r : Fin 50000) (n : Fin 1)
    (hx : ∀ k : Fin 128, x0 (ix2 p k) = X (ix2 r k)) :
    k5_pay1 x0 w (ix2 p n) = G d h1 h2 h3 h4 h5 h6 X w (ix2 r n) := by
  unfold k5_pay1
  show FloatOps.matmul dot_S5000x128_S128x1_S5000x1_1_0_0_1_n_n none (truncf .bf16 (shapeCast S5000x128 x0 shapeCasts_S5000x128_S5000x128) bitsLt_bf16_f32) (truncf .bf16 w bitsLt_bf16_f32) (constant S5000x1 .f32 0x00000000#32) (ix2 p n)
    = FloatOps.dotGeneral d none .single X w (ix2 r n)
  have e1 := Cert.LibBlockProduct.block_product dot_S5000x128_S128x1_S5000x1_1_0_0_1_n_n rfl rfl rfl rfl rfl rfl d h1 h2 h3 h4 h5 h6 none none .single
    (truncf .bf16 (shapeCast S5000x128 x0 shapeCasts_S5000x128_S5000x128) bitsLt_bf16_f32) (truncf .bf16 w bitsLt_bf16_f32) X w p r n (fun k => by rw [shapeCast_self]; exact hx k) (fun _ => rfl)
  rw [e1]

/-- The windows' block indices over the grid: the left window and the output move down the rows with the point, the
    weights and the bias window stay at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 10 :=
  (by decide +kernel : ∀ t : Fin grid5.N, _)

section
variable (V : (c : Dev nD) → (b : Ref sig .tc) → Buf (Elt Ideal) ((c : Thread nD τ).loc b))

/-- Row p of the left window's block at point t is row 5000·t + p of the left array. -/
theorem left_block (c : Dev nD) (t : Fin cfg5.N) (p : Fin 5000) (k : Fin 128) (r : Fin 50000) (hr : r.val = t.val * 5000 + p.val) :
    (iblk5 V c 0 t : Vec Ideal S5000x128 .f32) (ix2 p k) = (V c (Pipeline.arrRef spec5 0) : Vec Ideal S50000x128 .f32) (ix2 r k) := by
  obtain ⟨e0, e1, -⟩ := idx_facts t
  unfold iblk5
  rw [View.read_apply]
  show V c (Pipeline.arrRef spec5 0) _ = V c (Pipeline.arrRef spec5 0) _
  refine congrArg _ (funext fun a => Fin.ext ?_)
  match a with
  | ⟨0, _⟩ => show win5_0.index t 0 * 5000 + 1 * p.val = r.val; rw [e0, hr]; omega
  | ⟨1, _⟩ => show win5_0.index t 1 * 128 + 1 * k.val = k.val; rw [e1]; omega

/-- The weights' window is the whole weight array at every point. -/
theorem weight_block (c : Dev nD) (t : Fin cfg5.N) :
    (iblk5 V c 1 t : Vec Ideal S128x1 .f32) = V c (Pipeline.arrRef spec5 1) := by
  obtain ⟨-, -, e0, e1, -⟩ := idx_facts t
  unfold iblk5
  funext y
  rw [View.read_apply]
  show V c (Pipeline.arrRef spec5 1) _ = V c (Pipeline.arrRef spec5 1) _
  refine congrArg _ (funext fun a => Fin.ext ?_)
  match a with
  | ⟨0, _⟩ => show win5_1.index t 0 * 128 + 1 * (y 0).val = (y 0).val; rw [e0]; omega
  | ⟨1, _⟩ => show win5_1.index t 1 * 1 + 1 * (y 1).val = (y 1).val; rw [e1]; omega

/-- What point t writes back is block t of the whole-array function of the region's input arrays. -/
theorem flushed_eq (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = []) (c : Dev nD) (t : Fin cfg5.N) :
    (dat5 V c).flushed 3 t = ((cfg5.win 3).blk t).view.read (Elt Ideal)
      (G d h1 h2 h3 h4 h5 h6 (V c (Pipeline.arrRef spec5 0)) (V c (Pipeline.arrRef spec5 1))) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x1) hz, View.ld_unit_zero (S := S1x1) hz]
  rw [weight_block]
  obtain ⟨-, -, -, -, -, -, e6, e7, ht⟩ := idx_facts t
  funext y
  obtain ⟨p, n, rfl⟩ : ∃ (p : Fin 5000) (n : Fin 1), y = ix2 p n := ⟨y 0, y 1, eq_ix2 y⟩
  have hr : t.val * 5000 + p.val < 50000 := by have := p.isLt; omega
  rw [View.read_apply]
  have hemb : ((cfg5.win 3).blk t).view.emb (ix2 p n) = (ix2 (⟨t.val * 5000 + p.val, hr⟩ : Fin 50000) n : S50000x1.Idx) := by
    funext a; apply Fin.ext
    match a with
    | ⟨0, _⟩ => show win5_3.index t 0 * 5000 + 1 * p.val = t.val * 5000 + p.val; rw [e6]; omega
    | ⟨1, _⟩ => show win5_3.index t 1 * 1 + 1 * n.val = n.val; rw [e7]; omega
  rw [hemb]
  exact pay_entry d h1 h2 h3 h4 h5 h6 _ _ _ p ⟨_, hr⟩ n (fun k => left_block V c t p k _ rfl)

/-- Every index of the output array lies in the block of the point its row falls in. -/
theorem cover (i : S50000x1.Idx) : ∃ t : Fin cfg5.N, (cfg5.win 3).flush t = true ∧ i ∈ ((cfg5.win 3).blk t).view.set := by
  have hi0 : (i 0).val < 50000 := (i 0).isLt
  have hi1 : (i 1).val < 1 := (i 1).isLt
  have hN : cfg5.N = 10 := N_5
  let t : Fin cfg5.N := ⟨(i 0).val / 5000, by rw [hN]; omega⟩
  obtain ⟨-, -, -, -, -, -, e6, e7, -⟩ := idx_facts t
  refine ⟨t, flush5_3 t, ?_⟩
  show i ∈ ((View.whole main_v79).slice (win5_3.rect t)).set
  rw [View.set_slice_whole, Rect.mem_set_unit]
  intro a
  match a with
  | ⟨0, _⟩ => show win5_3.index t 0 * 5000 ≤ (i 0).val ∧ (i 0).val < win5_3.index t 0 * 5000 + 5000
              rw [e6]; show (i 0).val / 5000 * 5000 ≤ (i 0).val ∧ (i 0).val < (i 0).val / 5000 * 5000 + 5000; omega
  | ⟨1, _⟩ => show win5_3.index t 1 * 1 ≤ (i 1).val ∧ (i 1).val < win5_3.index t 1 * 1 + 1
              rw [e7]; omega

/-- The output array after the region: the whole-array function of the input arrays as the region found them. -/
theorem final (d : DotDims ⟨2, ![50000, 128]⟩ ⟨2, ![128, 1]⟩ ⟨2, ![50000, 1]⟩)
    (h1 : d.lhsContracting = [1]) (h2 : d.rhsContracting = [0]) (h3 : d.lhsNonContracting = [0])
    (h4 : d.rhsNonContracting = [1]) (h5 : d.lhsBatch = []) (h6 : d.rhsBatch = []) (c : Dev nD) :
    (dat5 V c).arrAt 3 cfg5.N
      = G d h1 h2 h3 h4 h5 h6 (V c main_v75) (V c main_arg12) :=
  (dat5 V c).arrAt_eq_of_cover 3 _ (fun t _ => flushed_eq V d h1 h2 h3 h4 h5 h6 c t) cover

end

end Cert.KernelIdeal.Region5

end
-- ==== Proof.Bridge.lean ====
/-
  The idealized kernel's result is the reference's function of the arguments. Both programs are the same three-layer
  network: a dense layer and a normalized graph aggregation (gather the transformed rows at the edges' sources,
  scale by the edge weights, add up at the edges' targets, add the bias) per layer. The kernel computes the six
  matrix products in regions, row block by row block, and everything else on the host with the reference's own
  operations; the reference computes the products on the host and recomputes the edge weights in each layer. A
  region's output array is the whole product (plus bias, clamped, where the layer has them), so going down the
  kernel's boundaries from the launch, every array it keeps is the reference's value of the same name: the source
  and target rows of the edge list, the edge weights, each layer's dense output, transformed features and their
  concatenation or sum. The only spelling that differs is a bias row: the kernel reshapes [n] to [1, n] where the
  reference broadcasts along a new leading axis; the two are one array.
-/
import proofs.«114399_j69234872811823_1_alg».proof.Proof.Gen.KernelIdeal.Frame
import proofs.«114399_j69234872811823_1_alg».proof.Proof.Carry
import proofs.«114399_j69234872811823_1_alg».proof.Proof.LibRowForms
import proofs.«114399_j69234872811823_1_alg».proof.Proof.WherePlain
import proofs.«114399_j69234872811823_1_alg».proof.Proof.Region0
import proofs.«114399_j69234872811823_1_alg».proof.Proof.Region1
import proofs.«114399_j69234872811823_1_alg».proof.Proof.Region2
import proofs.«114399_j69234872811823_1_alg».proof.Proof.Region3
import proofs.«114399_j69234872811823_1_alg».proof.Proof.Region4
import proofs.«114399_j69234872811823_1_alg».proof.Proof.Region5
import proofs.«114399_j69234872811823_1_alg».proof.Proof.RefRead
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## A bias row: the kernel's reshape [n] → [1, n] is the reference's broadcast along a new leading axis -/

theorem row_main_v30 {α : Type} (X : (⟨1, ![256]⟩ : Shape).Idx → α) (h : (⟨1, ![256]⟩ : Shape).ShapeCasts main_v30.ty.shape) :
    shapeCast main_v30.ty.shape X h = broadcastInDim ⟨2, ![1, 256]⟩ ![1] Cert.ReferenceIdeal.Gen.bcast_S256_S1x256_1 X :=
  Cert.LibRowForms.reshape_row X h _
theorem row_main_v47 {α : Type} (X : (⟨1, ![256]⟩ : Shape).Idx → α) (h : (⟨1, ![256]⟩ : Shape).ShapeCasts main_v47.ty.shape) :
    shapeCast main_v47.ty.shape X h = broadcastInDim ⟨2, ![1, 256]⟩ ![1] Cert.ReferenceIdeal.Gen.bcast_S256_S1x256_1 X :=
  Cert.LibRowForms.reshape_row X h _
theorem row_main_v53 {α : Type} (X : (⟨1, ![128]⟩ : Shape).Idx → α) (h : (⟨1, ![128]⟩ : Shape).ShapeCasts main_v53.ty.shape) :
    shapeCast main_v53.ty.shape X h = broadcastInDim ⟨2, ![1, 128]⟩ ![1] Cert.ReferenceIdeal.Gen.bcast_S128_S1x128_1 X :=
  Cert.LibRowForms.reshape_row X h _
theorem row_main_v70 {α : Type} (X : (⟨1, ![128]⟩ : Shape).Idx → α) (h : (⟨1, ![128]⟩ : Shape).ShapeCasts main_v70.ty.shape) :
    shapeCast main_v70.ty.shape X h = broadcastInDim ⟨2, ![1, 128]⟩ ![1] Cert.ReferenceIdeal.Gen.bcast_S128_S1x128_1 X :=
  Cert.LibRowForms.reshape_row X h _
theorem row_main_v76 {α : Type} (X : (⟨1, ![1]⟩ : Shape).Idx → α) (h : (⟨1, ![1]⟩ : Shape).ShapeCasts main_v76.ty.shape) :
    shapeCast main_v76.ty.shape X h = broadcastInDim ⟨2, ![1, 1]⟩ ![1] Cert.ReferenceIdeal.Gen.bcast_S1_S1x1_1 X :=
  Cert.LibRowForms.reshape_row X h _
theorem row_main_v92 {α : Type} (X : (⟨1, ![1]⟩ : Shape).Idx → α) (h : (⟨1, ![1]⟩ : Shape).ShapeCasts main_v92.ty.shape) :
    shapeCast main_v92.ty.shape X h = broadcastInDim ⟨2, ![1, 1]⟩ ![1] Cert.ReferenceIdeal.Gen.bcast_S1_S1x1_1 X :=
  Cert.LibRowForms.reshape_row X h _

/-- Read each operation's result where one sits inside a concatenation's operand list. -/
macro "results_rw" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-! ## Before the first region: the edge list's rows and the edge weights -/

/-- The edges' source rows. -/
theorem at5_v1 (c : Dev nD) : W5 m ρ c (Proc.devRef .tc main_v1) = Cert.ReferenceIdeal.ReadP.val_main_v6 (F := Ideal) (m ((c : Thread nD τ).loc main_arg1)) := by
  dsimp only [W5, W4, W3, W2, W1]
  try rw [WherePlain.hostOps0_1_plain]
  try rw [WherePlain.hostOps0_3_plain]
  after_results_simp
  all_goals rfl
/-- The edges' target rows. -/
theorem at5_v3 (c : Dev nD) : W5 m ρ c (Proc.devRef .tc main_v3) = Cert.ReferenceIdeal.ReadP.val_main_v8 (F := Ideal) (m ((c : Thread nD τ).loc main_arg1)) := by
  dsimp only [W5, W4, W3, W2, W1]
  try rw [WherePlain.hostOps0_1_plain]
  try rw [WherePlain.hostOps0_3_plain]
  after_results_simp
  all_goals rfl
/-- The edge weights: the product of the inverse square roots of the in-degrees at an edge's two ends. -/
theorem at5_v29 (c : Dev nD) : W5 m ρ c (Proc.devRef .tc main_v29) = Cert.ReferenceIdeal.ReadP.val_main_v35 (F := Ideal) (m ((c : Thread nD τ).loc main_arg1)) := by
  dsimp only [W5, W4, W3, W2, W1]
  try rw [WherePlain.hostOps0_1_plain]
  try rw [WherePlain.hostOps0_3_plain]
  after_results_simp
  all_goals rfl

/-! ## Layer 1 -/

/-- Region 0 leaves the first dense layer: max (x · w_fc + b_fc, 0). -/
theorem at6_v31 (c : Dev nD) : W6 m ρ c (Proc.devRef .tc main_v31) = Cert.ReferenceIdeal.ReadP.val_main_v4 (F := Ideal) (m ((c : Thread nD τ).loc main_arg0)) (m ((c : Thread nD τ).loc main_arg2)) (m ((c : Thread nD τ).loc main_arg3)) := by
  refine (W6_arr m ρ c 3).trans ?_
  rw [Region0.final (V5 m ρ) Cert.ReferenceIdeal.dot_S50000x64_S64x256_S50000x256_1_0_0_1_n_n rfl rfl rfl rfl rfl rfl Cert.ReferenceIdeal.Gen.bcast_S1x256_S50000x256_0_1 Cert.ReferenceIdeal.Gen.bcast_S_S50000x256 c]
  dsimp only [Region0.G, V5, W5, W4, W3, W2, W1]
  after_results_simp
  rw [row_main_v30]
  rfl
/-- The node features, unchanged at region 1's entry. -/
theorem at7_arg0 (c : Dev nD) : W7 m ρ c (Proc.devRef .tc main_arg0) = (m ((c : Thread nD τ).loc main_arg0)) := by
  dsimp only [W7]
  after_results_simp
  rw [Carry.W6_main_arg0 m ρ c]
  dsimp only [W5, W4, W3, W2, W1]
  try rw [WherePlain.hostOps0_1_plain]
  try rw [WherePlain.hostOps0_3_plain]
  after_results_simp
  all_goals rfl

/-- The first convolution's weights, unchanged at region 1's entry. -/
theorem at7_arg4 (c : Dev nD) : W7 m ρ c (Proc.devRef .tc main_arg4) = (m ((c : Thread nD τ).loc main_arg4)) := by
  dsimp only [W7]
  after_results_simp
  rw [Carry.W6_main_arg4 m ρ c]
  dsimp only [W5, W4, W3, W2, W1]
  try rw [WherePlain.hostOps0_1_plain]
  try rw [WherePlain.hostOps0_3_plain]
  after_results_simp
  all_goals rfl

/-- Region 1 leaves the first convolution's transformed features x · w_conv1. -/
theorem at8_v33 (c : Dev nD) : W8 m ρ c (Proc.devRef .tc main_v33) = Cert.ReferenceIdeal.ReadP.val_main_v9 (F := Ideal) (m ((c : Thread nD τ).loc main_arg0)) (m ((c : Thread nD τ).loc main_arg4)) := by
  refine (W8_arr m ρ c 3).trans ?_
  rw [Region1.final (V7 m ρ) Cert.ReferenceIdeal.dot_S50000x64_S64x256_S50000x256_1_0_0_1_n_n rfl rfl rfl rfl rfl rfl c]
  dsimp only [Region1.G, V7]
  rw [at7_arg0 m ρ c, at7_arg4 m ρ c]
  rfl
/-- The source rows at region 1's exit. -/
theorem at8_v1 (c : Dev nD) : W8 m ρ c (Proc.devRef .tc main_v1) = Cert.ReferenceIdeal.ReadP.val_main_v6 (F := Ideal) (m ((c : Thread nD τ).loc main_arg1)) := by
  rw [Carry.W8_main_v1 m ρ c]
  dsimp only [W7]
  after_results_simp
  rw [Carry.W6_main_v1 m ρ c]
  exact at5_v1 m ρ c

/-- The target rows at region 1's exit. -/
theorem at8_v3 (c : Dev nD) : W8 m ρ c (Proc.devRef .tc main_v3) = Cert.ReferenceIdeal.ReadP.val_main_v8 (F := Ideal) (m ((c : Thread nD τ).loc main_arg1)) := by
  rw [Carry.W8_main_v3 m ρ c]
  dsimp only [W7]
  after_results_simp
  rw [Carry.W6_main_v3 m ρ c]
  exact at5_v3 m ρ c

/-- The edge weights at region 1's exit. -/
theorem at8_v29 (c : Dev nD) : W8 m ρ c (Proc.devRef .tc main_v29) = Cert.ReferenceIdeal.ReadP.val_main_v35 (F := Ideal) (m ((c : Thread nD τ).loc main_arg1)) := by
  rw [Carry.W8_main_v29 m ρ c]
  dsimp only [W7]
  after_results_simp
  rw [Carry.W6_main_v29 m ρ c]
  exact at5_v29 m ρ c

/-- The first dense layer at region 1's exit. -/
theorem at8_v31 (c : Dev nD) : W8 m ρ c (Proc.devRef .tc main_v31) = Cert.ReferenceIdeal.ReadP.val_main_v4 (F := Ideal) (m ((c : Thread nD τ).loc main_arg0)) (m ((c : Thread nD τ).loc main_arg2)) (m ((c : Thread nD τ).loc main_arg3)) := by
  rw [Carry.W8_main_v31 m ρ c]
  dsimp only [W7]
  after_results_simp
  exact at6_v31 m ρ c

/-- The first convolution's bias at region 1's exit. -/
theorem at8_arg5 (c : Dev nD) : W8 m ρ c (Proc.devRef .tc main_arg5) = (m ((c : Thread nD τ).loc main_arg5)) := by
  rw [Carry.W8_main_arg5 m ρ c]
  dsimp only [W7]
  after_results_simp
  rw [Carry.W6_main_arg5 m ρ c]
  dsimp only [W5, W4, W3, W2, W1]
  try rw [WherePlain.hostOps0_1_plain]
  try rw [WherePlain.hostOps0_3_plain]
  after_results_simp
  all_goals rfl

/-- The second dense layer's bias at region 1's exit. -/
theorem at8_arg7 (c : Dev nD) : W8 m ρ c (Proc.devRef .tc main_arg7) = (m ((c : Thread nD τ).loc main_arg7)) := by
  rw [Carry.W8_main_arg7 m ρ c]
  dsimp only [W7]
  after_results_simp
  rw [Carry.W6_main_arg7 m ρ c]
  dsimp only [W5, W4, W3, W2, W1]
  try rw [WherePlain.hostOps0_1_plain]
  try rw [WherePlain.hostOps0_3_plain]
  after_results_simp
  all_goals rfl

set_option maxHeartbeats 4000000 in
/-- The concatenation of the first dense layer and the first convolution (aggregated, biased, clamped). -/
theorem at9_v52 (c : Dev nD) : W9 m ρ c (Proc.devRef .tc main_v52) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W9]
  after_results_simp
  results_rw
  rw [at8_v1 m ρ c, at8_v3 m ρ c, at8_v29 m ρ c, at8_v33 m ρ c, at8_arg5 m ρ c, at8_v31 m ρ c, row_main_v47]
  rfl

/-! ## Layer 2 -/

/-- The second dense layer's weights at region 2's entry. -/
theorem at9_arg6 (c : Dev nD) : W9 m ρ c (Proc.devRef .tc main_arg6) = (m ((c : Thread nD τ).loc main_arg6)) := by
  dsimp only [W9]
  after_results_simp
  rw [Carry.W8_main_arg6 m ρ c]
  dsimp only [W7]
  after_results_simp
  rw [Carry.W6_main_arg6 m ρ c]
  dsimp only [W5, W4, W3, W2, W1]
  try rw [WherePlain.hostOps0_1_plain]
  try rw [WherePlain.hostOps0_3_plain]
  after_results_simp
  all_goals rfl

/-- Region 2 leaves the second dense layer. -/
theorem at10_v54 (c : Dev nD) : W10 m ρ c (Proc.devRef .tc main_v54) = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ?_
  rw [Region2.final (V9 m ρ) Cert.ReferenceIdeal.dot_S50000x512_S512x128_S50000x128_1_0_0_1_n_n rfl rfl rfl rfl rfl rfl Cert.ReferenceIdeal.Gen.bcast_S1x128_S50000x128_0_1 Cert.ReferenceIdeal.Gen.bcast_S_S50000x128 c]
  dsimp only [Region2.G, V9]
  rw [at9_v52 m ρ c, at9_arg6 m ρ c]
  dsimp only [W9]
  after_results_simp
  rw [at8_arg7 m ρ c, row_main_v53]
  rfl
/-- The concatenation at region 3's entry. -/
theorem at11_v52 (c : Dev nD) : W11 m ρ c (Proc.devRef .tc main_v52) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W11]
  after_results_simp
  rw [Carry.W10_main_v52 m ρ c]
  exact at9_v52 m ρ c

/-- The second convolution's weights at region 3's entry. -/
theorem at11_arg8 (c : Dev nD) : W11 m ρ c (Proc.devRef .tc main_arg8) = (m ((c : Thread nD τ).loc main_arg8)) := by
  dsimp only [W11]
  after_results_simp
  rw [Carry.W10_main_arg8 m ρ c]
  dsimp only [W9]
  after_results_simp
  rw [Carry.W8_main_arg8 m ρ c]
  dsimp only [W7]
  after_results_simp
  rw [Carry.W6_main_arg8 m ρ c]
  dsimp only [W5, W4, W3, W2, W1]
  try rw [WherePlain.hostOps0_1_plain]
  try rw [WherePlain.hostOps0_3_plain]
  after_results_simp
  all_goals rfl

/-- Region 3 leaves the second convolution's transformed features. -/
theorem at12_v56 (c : Dev nD) : W12 m ρ c (Proc.devRef .tc main_v56) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (W12_arr m ρ c 3).trans ?_
  rw [Region3.final (V11 m ρ) Cert.ReferenceIdeal.dot_S50000x512_S512x128_S50000x128_1_0_0_1_n_n rfl rfl rfl rfl rfl rfl c]
  dsimp only [Region3.G, V11]
  rw [at11_v52 m ρ c, at11_arg8 m ρ c]
  rfl
/-- The source rows at region 3's exit. -/
theorem at12_v1 (c : Dev nD) : W12 m ρ c (Proc.devRef .tc main_v1) = Cert.ReferenceIdeal.ReadP.val_main_v6 (F := Ideal) (m ((c : Thread nD τ).loc main_arg1)) := by
  rw [Carry.W12_main_v1 m ρ c]
  dsimp only [W11]
  after_results_simp
  rw [Carry.W10_main_v1 m ρ c]
  dsimp only [W9]
  after_results_simp
  exact at8_v1 m ρ c

/-- The target rows at region 3's exit. -/
theorem at12_v3 (c : Dev nD) : W12 m ρ c (Proc.devRef .tc main_v3) = Cert.ReferenceIdeal.ReadP.val_main_v8 (F := Ideal) (m ((c : Thread nD τ).loc main_arg1)) := by
  rw [Carry.W12_main_v3 m ρ c]
  dsimp only [W11]
  after_results_simp
  rw [Carry.W10_main_v3 m ρ c]
  dsimp only [W9]
  after_results_simp
  exact at8_v3 m ρ c

/-- The edge weights at region 3's exit. -/
theorem at12_v29 (c : Dev nD) : W12 m ρ c (Proc.devRef .tc main_v29) = Cert.ReferenceIdeal.ReadP.val_main_v35 (F := Ideal) (m ((c : Thread nD τ).loc main_arg1)) := by
  rw [Carry.W12_main_v29 m ρ c]
  dsimp only [W11]
  after_results_simp
  rw [Carry.W10_main_v29 m ρ c]
  dsimp only [W9]
  after_results_simp
  exact at8_v29 m ρ c

/-- The second dense layer at region 3's exit. -/
theorem at12_v54 (c : Dev nD) : W12 m ρ c (Proc.devRef .tc main_v54) = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Carry.W12_main_v54 m ρ c]
  dsimp only [W11]
  after_results_simp
  exact at10_v54 m ρ c

/-- The second convolution's bias at region 3's exit. -/
theorem at12_arg9 (c : Dev nD) : W12 m ρ c (Proc.devRef .tc main_arg9) = (m ((c : Thread nD τ).loc main_arg9)) := by
  rw [Carry.W12_main_arg9 m ρ c]
  dsimp only [W11]
  after_results_simp
  rw [Carry.W10_main_arg9 m ρ c]
  dsimp only [W9]
  after_results_simp
  rw [Carry.W8_main_arg9 m ρ c]
  dsimp only [W7]
  after_results_simp
  rw [Carry.W6_main_arg9 m ρ c]
  dsimp only [W5, W4, W3, W2, W1]
  try rw [WherePlain.hostOps0_1_plain]
  try rw [WherePlain.hostOps0_3_plain]
  after_results_simp
  all_goals rfl

/-- The third dense layer's bias at region 3's exit. -/
theorem at12_arg11 (c : Dev nD) : W12 m ρ c (Proc.devRef .tc main_arg11) = (m ((c : Thread nD τ).loc main_arg11)) := by
  rw [Carry.W12_main_arg11 m ρ c]
  dsimp only [W11]
  after_results_simp
  rw [Carry.W10_main_arg11 m ρ c]
  dsimp only [W9]
  after_results_simp
  rw [Carry.W8_main_arg11 m ρ c]
  dsimp only [W7]
  after_results_simp
  rw [Carry.W6_main_arg11 m ρ c]
  dsimp only [W5, W4, W3, W2, W1]
  try rw [WherePlain.hostOps0_1_plain]
  try rw [WherePlain.hostOps0_3_plain]
  after_results_simp
  all_goals rfl

/-- The sum of the second dense layer and the second convolution. -/
theorem at13_v75 (c : Dev nD) : W13 m ρ c (Proc.devRef .tc main_v75) = Cert.ReferenceIdeal.ReadP.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W13]
  after_results_simp
  simp only [at12_v1 m ρ c, at12_v3 m ρ c, at12_v29 m ρ c, at12_v54 m ρ c, at12_v56 m ρ c, at12_arg9 m ρ c]
  rw [row_main_v70]
  rfl

/-! ## Layer 3 -/

/-- The third dense layer's weights at region 4's entry. -/
theorem at13_arg10 (c : Dev nD) : W13 m ρ c (Proc.devRef .tc main_arg10) = (m ((c : Thread nD τ).loc main_arg10)) := by
  dsimp only [W13]
  after_results_simp
  rw [Carry.W12_main_arg10 m ρ c]
  dsimp only [W11]
  after_results_simp
  rw [Carry.W10_main_arg10 m ρ c]
  dsimp only [W9]
  after_results_simp
  rw [Carry.W8_main_arg10 m ρ c]
  dsimp only [W7]
  after_results_simp
  rw [Carry.W6_main_arg10 m ρ c]
  dsimp only [W5, W4, W3, W2, W1]
  try rw [WherePlain.hostOps0_1_plain]
  try rw [WherePlain.hostOps0_3_plain]
  after_results_simp
  all_goals rfl

/-- Region 4 leaves the third dense layer (no clamp). -/
theorem at14_v77 (c : Dev nD) : W14 m ρ c (Proc.devRef .tc main_v77) = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 3).trans ?_
  rw [Region4.final (V13 m ρ) Cert.ReferenceIdeal.dot_S50000x128_S128x1_S50000x1_1_0_0_1_n_n rfl rfl rfl rfl rfl rfl Cert.ReferenceIdeal.Gen.bcast_S1x1_S50000x1_0_1 c]
  dsimp only [Region4.G, V13]
  rw [at13_v75 m ρ c, at13_arg10 m ρ c]
  dsimp only [W13]
  after_results_simp
  rw [at12_arg11 m ρ c, row_main_v76]
  rfl
/-- The layer-2 sum at region 5's entry. -/
theorem at15_v75 (c : Dev nD) : W15 m ρ c (Proc.devRef .tc main_v75) = Cert.ReferenceIdeal.ReadP.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W15]
  after_results_simp
  rw [Carry.W14_main_v75 m ρ c]
  exact at13_v75 m ρ c

/-- The third convolution's weights at region 5's entry. -/
theorem at15_arg12 (c : Dev nD) : W15 m ρ c (Proc.devRef .tc main_arg12) = (m ((c : Thread nD τ).loc main_arg12)) := by
  dsimp only [W15]
  after_results_simp
  rw [Carry.W14_main_arg12 m ρ c]
  dsimp only [W13]
  after_results_simp
  rw [Carry.W12_main_arg12 m ρ c]
  dsimp only [W11]
  after_results_simp
  rw [Carry.W10_main_arg12 m ρ c]
  dsimp only [W9]
  after_results_simp
  rw [Carry.W8_main_arg12 m ρ c]
  dsimp only [W7]
  after_results_simp
  rw [Carry.W6_main_arg12 m ρ c]
  dsimp only [W5, W4, W3, W2, W1]
  try rw [WherePlain.hostOps0_1_plain]
  try rw [WherePlain.hostOps0_3_plain]
  after_results_simp
  all_goals rfl

/-- Region 5 leaves the third convolution's transformed features. -/
theorem at16_v79 (c : Dev nD) : W16 m ρ c (Proc.devRef .tc main_v79) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) := by
  refine (W16_arr m ρ c 3).trans ?_
  rw [Region5.final (V15 m ρ) Cert.ReferenceIdeal.dot_S50000x128_S128x1_S50000x1_1_0_0_1_n_n rfl rfl rfl rfl rfl rfl c]
  dsimp only [Region5.G, V15]
  rw [at15_v75 m ρ c, at15_arg12 m ρ c]
  rfl
/-- The source rows at region 5's exit. -/
theorem at16_v1 (c : Dev nD) : W16 m ρ c (Proc.devRef .tc main_v1) = Cert.ReferenceIdeal.ReadP.val_main_v6 (F := Ideal) (m ((c : Thread nD τ).loc main_arg1)) := by
  rw [Carry.W16_main_v1 m ρ c]
  dsimp only [W15]
  after_results_simp
  rw [Carry.W14_main_v1 m ρ c]
  dsimp only [W13]
  after_results_simp
  exact at12_v1 m ρ c

/-- The target rows at region 5's exit. -/
theorem at16_v3 (c : Dev nD) : W16 m ρ c (Proc.devRef .tc main_v3) = Cert.ReferenceIdeal.ReadP.val_main_v8 (F := Ideal) (m ((c : Thread nD τ).loc main_arg1)) := by
  rw [Carry.W16_main_v3 m ρ c]
  dsimp only [W15]
  after_results_simp
  rw [Carry.W14_main_v3 m ρ c]
  dsimp only [W13]
  after_results_simp
  exact at12_v3 m ρ c

/-- The edge weights at region 5's exit. -/
theorem at16_v29 (c : Dev nD) : W16 m ρ c (Proc.devRef .tc main_v29) = Cert.ReferenceIdeal.ReadP.val_main_v35 (F := Ideal) (m ((c : Thread nD τ).loc main_arg1)) := by
  rw [Carry.W16_main_v29 m ρ c]
  dsimp only [W15]
  after_results_simp
  rw [Carry.W14_main_v29 m ρ c]
  dsimp only [W13]
  after_results_simp
  exact at12_v29 m ρ c

/-- The third dense layer at region 5's exit. -/
theorem at16_v77 (c : Dev nD) : W16 m ρ c (Proc.devRef .tc main_v77) = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Carry.W16_main_v77 m ρ c]
  dsimp only [W15]
  after_results_simp
  exact at14_v77 m ρ c

/-- The third convolution's bias at region 5's exit. -/
theorem at16_arg13 (c : Dev nD) : W16 m ρ c (Proc.devRef .tc main_arg13) = (m ((c : Thread nD τ).loc main_arg13)) := by
  rw [Carry.W16_main_arg13 m ρ c]
  dsimp only [W15]
  after_results_simp
  rw [Carry.W14_main_arg13 m ρ c]
  dsimp only [W13]
  after_results_simp
  rw [Carry.W12_main_arg13 m ρ c]
  dsimp only [W11]
  after_results_simp
  rw [Carry.W10_main_arg13 m ρ c]
  dsimp only [W9]
  after_results_simp
  rw [Carry.W8_main_arg13 m ρ c]
  dsimp only [W7]
  after_results_simp
  rw [Carry.W6_main_arg13 m ρ c]
  dsimp only [W5, W4, W3, W2, W1]
  try rw [WherePlain.hostOps0_1_plain]
  try rw [WherePlain.hostOps0_3_plain]
  after_results_simp
  all_goals rfl

/-- THE RESULT: the third dense layer plus the third convolution, the reference's function of the fourteen arguments. -/
theorem result (c : Dev nD) : W17 m ρ c (Proc.devRef .tc main_v95) = Cert.ReferenceIdeal.ReadP.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  dsimp only [W17]
  after_results_simp
  simp only [at16_v1 m ρ c, at16_v3 m ρ c, at16_v29 m ρ c, at16_v77 m ρ c, at16_v79 m ρ c, at16_arg13 m ρ c]
  rw [row_main_v92]
  rfl

end Cert.Bridge

end
-- ==== Proof.lean ====
/-
  The proof of the certificate's claim for a three-layer graph network computed by six matrix-product regions among
  host operations, against its host-only reference.

  The three frames: the two kernel programs' are the generated ones; the reference has no kernel, and its frame is its
  run with the result dropped. The ideal pass rewrote nothing, so `preserves` is `True`. The algebraic claim: at the
  extended reals both programs end with the result array at one function of the fourteen arguments — the reference's
  composed term. For the kernel this is `Cert.Bridge.result`: each region's output array is the whole matrix product
  of its input arrays (an entry of a product reads one row of the left operand, so the row blocks computed point by
  point are the blocks of the whole product), and every host operation between the regions is the reference's own.
  No law of arithmetic beyond reading a product entry as a finite sum is used, so the precondition is never opened.
-/
import proofs.«114399_j69234872811823_1_alg».proof.Defs
import proofs.«114399_j69234872811823_1_alg».proof.Proof.Gen.Kernel
import proofs.«114399_j69234872811823_1_alg».proof.Proof.Gen.Kernel.Skeleton
import proofs.«114399_j69234872811823_1_alg».proof.Proof.Gen.Kernel.Launch
import proofs.«114399_j69234872811823_1_alg».proof.Proof.Gen.Kernel.Points
import proofs.«114399_j69234872811823_1_alg».proof.Proof.Gen.Kernel.Frame
import proofs.«114399_j69234872811823_1_alg».proof.Proof.Gen.KernelIdeal
import proofs.«114399_j69234872811823_1_alg».proof.Proof.Gen.KernelIdeal.Skeleton
import proofs.«114399_j69234872811823_1_alg».proof.Proof.Gen.KernelIdeal.Launch
import proofs.«114399_j69234872811823_1_alg».proof.Proof.Gen.KernelIdeal.Points
import proofs.«114399_j69234872811823_1_alg».proof.Proof.Gen.KernelIdeal.Frame
import proofs.«114399_j69234872811823_1_alg».proof.Proof.Gen.ReferenceIdeal
import proofs.«114399_j69234872811823_1_alg».proof.Proof.Gen.Pre_finite_inputs
import proofs.«114399_j69234872811823_1_alg».proof.Proof.RefRun
import proofs.«114399_j69234872811823_1_alg».proof.Proof.RefRead
import proofs.«114399_j69234872811823_1_alg».proof.Proof.KRun
import proofs.«114399_j69234872811823_1_alg».proof.Proof.Bridge
import Idealize.ShloMosaic.Adequacy
import Idealize.ShloMosaic.Init

noncomputable section

namespace Cert.Proof

open Idealize.ShloMosaic Idealize.SL.Sem

/-- The reference's frame: its run, the result forgotten. -/
theorem frame_ref : Cert.frame_ReferenceIdeal := fun m ρ _ =>
  (θ_run Cert.ReferenceIdeal.defs _ _).mono (fun _ h c => (h c).2) (Cert.ReferenceIdeal.ValueP.run (F := Ideal) m ρ)

/-- Both idealized programs end with the result array at the reference's function of the arguments. -/
theorem algebraic : Cert.algebraic_KernelIdeal_ReferenceIdeal := by
  intro m ρ m' ρ' _ hagree
  refine ⟨fun c => Cert.ReferenceIdeal.ValueP.res_main_v158 m' c, ?_, ?_⟩
  · refine (θ_run Cert.KernelIdeal.defs _ _).mono (fun _ h c => ⟨(h c).1.trans ?_, (h c).2⟩)
      (Cert.KernelIdeal.KRun.run_value (F := Ideal) m ρ)
    obtain ⟨e0, e1, e2, e3, e4, e5, e6, e7, e8, e9, e10, e11, e12, e13⟩ := hagree c
    beta_reduce
    rw [Cert.Bridge.result m ρ c, Cert.ReferenceIdeal.ReadP.val_main_v158_eq m' c,
      e0, e1, e2, e3, e4, e5, e6, e7, e8, e9, e10, e11, e12, e13]
  · exact Cert.ReferenceIdeal.ValueP.run (F := Ideal) m' ρ'

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
